-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144x128 : Shape := ⟨2, ![262144, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S384x128 .f32) (main_arg11 : FVec F S128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg10
  let main_cst_18 : FVec F S_ .f32 := constant S_ .f32 0x7F800000#32
  let main_v50 : FVec F S384x128 .f32 := broadcastInDim S384x128 ![] bcast_S_S384x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S384x128 .f32) (main_arg7 : FVec F S128 .f32) (main_arg8 : FVec F S128x128 .f32) (main_arg9 : FVec F S128 .f32) (main_arg10 : FVec F S384x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg6
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S262144x256 .f32) (main_arg1 : FVec F S262144x128 .f32) (main_arg2 : FVec F S384x128 .f32) (main_arg3 : FVec F S128 .f32) (main_arg4 : FVec F S128x128 .f32) (main_arg5 : FVec F S128 .f32) (main_arg6 : FVec F S384x128 .f32) (main_arg7 : FVec F S128 .f32) (main_arg8 : FVec F S128x128 .f32) (main_arg9 : FVec F S128 .f32) (main_arg10 : FVec F S384x128 .f32) (main_arg11 : FVec F S128 .f32) (main_arg12 : FVec F S128x128 .f32) (main_arg13 : FVec F S128 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S262144x256 : Shape := ⟨2, ![262144, 256]⟩
abbrev S262144x128 : Shape := ⟨2, ![262144, 128]⟩
abbrev S384x128 : Shape := ⟨2, ![384, 128]⟩
abbrev S128 : Shape := ⟨1, ![128]⟩
abbrev S128x128 : Shape := ⟨2, ![128, 128]⟩
abbrev S384x256 : Shape := ⟨2, ![384, 256]⟩
abbrev S128x256 : Shape := ⟨2, ![128, 256]⟩
abbrev S256x256 : Shape := ⟨2, ![256, 256]⟩
abbrev S256 : Shape := ⟨1, ![256]⟩
abbrev S_ : Shape := ⟨0, ![]⟩
abbrev S256x128 : Shape := ⟨2, ![256, 128]⟩
abbrev S4096x256 : Shape := ⟨2, ![4096, 256]⟩
abbrev S4096x128 : Shape := ⟨2, ![4096, 128]⟩
abbrev S1x256 : Shape := ⟨2, ![1, 256]⟩
abbrev S1x128 : Shape := ⟨2, ![1, 128]⟩

abbrev nBuf : Space → Nat
  | .hbm => 33
  | .vmem => 16
  | .smem => 0
  | _ => 0

abbrev bufTy : (tb : Table) → Fin (tcTables nBuf tb) → BufTy
  | .hbm, ⟨0, _⟩ => ⟨S262144x256, .f32⟩
  | .hbm, ⟨1, _⟩ => ⟨S262144x128, .f32⟩
  | .hbm, ⟨2, _⟩ => ⟨S384x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S384x256, .f32⟩
  | .hbm, ⟨15, _⟩ => ⟨S128x256, .f32⟩
  | .hbm, ⟨16, _⟩ => ⟨S128x256, .bf16⟩
  | .hbm, ⟨17, _⟩ => ⟨S256x256, .f32⟩
  | .hbm, ⟨18, _⟩ => ⟨S256x256, .bf16⟩
  | .hbm, ⟨19, _⟩ => ⟨S256, .f32⟩
  | .hbm, ⟨20, _⟩ => ⟨S_, .f32⟩
  | .hbm, ⟨21, _⟩ => ⟨S128x128, .f32⟩
  | .hbm, ⟨22, _⟩ => ⟨S128x256, .f32⟩
  | .hbm, ⟨23, _⟩ => ⟨S128x256, .f32⟩
  | .hbm, ⟨24, _⟩ => ⟨S256x256, .f32⟩
  | .hbm, ⟨25, _⟩ => ⟨S256x256, .bf16⟩
  | .hbm, ⟨26, _⟩ => ⟨S256, .f32⟩
  | .hbm, ⟨27, _⟩ => ⟨S128x128, .f32⟩
  | .hbm, ⟨28, _⟩ => ⟨S128x128, .bf16⟩
  | .hbm, ⟨29, _⟩ => ⟨S256x128, .f32⟩
  | .hbm, ⟨30, _⟩ => ⟨S256x128, .bf16⟩
  | .hbm, ⟨31, _⟩ => ⟨S128x128, .bf16⟩
  | .hbm, ⟨32, _⟩ => ⟨S262144x128, .f32⟩
  | .local _ .vmem, ⟨0, _⟩ => ⟨S4096x256, .f32⟩
  | .local _ .vmem, ⟨1, _⟩ => ⟨S4096x256, .f32⟩
  | .local _ .vmem, ⟨2, _⟩ => ⟨S4096x128, .f32⟩
  | .local _ .vmem, ⟨3, _⟩ => ⟨S4096x128, .f32⟩
  | .local _ .vmem, ⟨4, _⟩ => ⟨S128x256, .bf16⟩
  | .local _ .vmem, ⟨5, _⟩ => ⟨S256x256, .bf16⟩
  | .local _ .vmem, ⟨6, _⟩ => ⟨S256, .f32⟩
  | .local _ .vmem, ⟨7, _⟩ => ⟨S256x256, .bf16⟩
  | .local _ .vmem, ⟨8, _⟩ => ⟨S256, .f32⟩
  | .local _ .vmem, ⟨9, _⟩ => ⟨S128x128, .bf16⟩
  | .local _ .vmem, ⟨10, _⟩ => ⟨S256x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S4096x128, .f32⟩
  | .local _ .vmem, ⟨15, _⟩ => ⟨S4096x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S384x128_S384x128_S384x256_d1 : Shape.Concatenates [S384x128, S384x128] S384x256 1
  slices_S384x256_S128x256_0_0 : S384x256.Slices ![0, 0] S128x256
  bitsLt_bf16_f32 : FTy.bits .bf16 < FTy.bits .f32
  slices_S384x256_S256x256_128_0 : S384x256.Slices ![128, 0] S256x256
  concatenates_S128_S128_S256_d0 : Shape.Concatenates [S128, S128] S256 0
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  slices_S384x128_S128x128_0_0 : S384x128.Slices ![0, 0] S128x128
  slices_S384x128_S256x128_128_0 : S384x128.Slices ![128, 0] S256x128
  inb_S4096x256_S4096x256_0_0 : ∀ a, (![0, 0] : Fin 2 → Nat) a + S4096x256.size a ≤ S4096x256.size a
  h_S4096x256 : 0 < S4096x256.numel
  inb_S4096x128_S4096x128_0_0 : ∀ a, (![0, 0] : Fin 2 → Nat) a + S4096x128.size a ≤ S4096x128.size a
  h_S4096x128 : 0 < S4096x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  slices_S4096x256_o0_0_S4096x128 : S4096x256.Slices ![0, 0] S4096x128
  slices_S4096x256_o0_128_S4096x128 : S4096x256.Slices ![0, 128] S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x128.size a ≤ S262144x128.size a
  hwx0_12 : ∀ i : grid0.Coords, EltTy.bits .f32 = 32 ∨ (Rect.block (s := S262144x128) S4096x128.size (cc0_transform_12 i) (hinb0_12 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S4096x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144x128 : Shape := ⟨2, ![262144, 128]⟩
abbrev S384x128 : Shape := ⟨2, ![384, 128]⟩
abbrev S128 : Shape := ⟨1, ![128]⟩
abbrev S128x128 : Shape := ⟨2, ![128, 128]⟩
abbrev S262144x384 : Shape := ⟨2, ![262144, 384]⟩
abbrev S1x128 : Shape := ⟨2, ![1, 128]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x128, .f32⟩
  | .hbm, ⟨2, _⟩ => ⟨S384x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S262144x384, .f32⟩
  | .hbm, ⟨15, _⟩ => ⟨S262144x128, .f32⟩
  | .hbm, ⟨16, _⟩ => ⟨S1x128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S262144x128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S_, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S1x128, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S1x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S262144x384, .f32⟩
  | .hbm, ⟨51, _⟩ => ⟨S262144x128, .f32⟩
  | .hbm, ⟨52, _⟩ => ⟨S1x128, .f32⟩
  | .hbm, ⟨53, _⟩ => ⟨S262144x128, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S1x128, .f32⟩
  | .hbm, ⟨58, _⟩ => ⟨S262144x128, .f32⟩
  | .hbm, ⟨59, _⟩ => ⟨S262144x128, .f32⟩
  | .hbm, ⟨60, _⟩ => ⟨S_, .f32⟩
  | .hbm, ⟨61, _⟩ => ⟨S262144x128, .f32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S262144x128, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  concatenates_S262144x128_S262144x256_S262144x384_d1 : Shape.Concatenates [S262144x128, S262144x256] S262144x384 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  dot_S262144x384_S384x128_S262144x128_1_0_0_1_n_n_wf : DotDims.WF S262144x384 S384x128 S262144x128 [1] [0] [0] [1] [] []
  dot_S262144x128_S128x128_S262144x128_1_0_0_1_n_n_wf : DotDims.WF S262144x128 S128x128 S262144x128 [1] [0] [0] [1] [] []

variable [Facts₀]

def dot_S262144x384_S384x128_S262144x128_1_0_0_1_n_n : DotDims S262144x384 S384x128 S262144x128 where
  lhsContracting := [1]
  rhsContracting := [0]
  lhsNonContracting := [0]
  rhsNonContracting := [1]
  lhsBatch := []
  rhsBatch := []
  wf := dot_S262144x384_S384x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.GruRow.lean ====
/-
  One row of the GRU cell, as mathematics on the extended reals, in two arrangements, and the proof that they agree.

  A row has a hidden state `h` (128 entries) and an input `x` (256 entries). A GATE is a two-layer perceptron on the
  joined row `h ++ x` (384 entries): `tanh ((h ++ x) · W₁ + b₁) · W₂ + b₂`. The product of the joined row with a
  384-row matrix is written here already split at the joint — the first 128 rows of the matrix meet `h`, the last 256
  meet `x` — because the sum over 384 terms IS the sum over the first 128 plus the sum over the last 256 in any
  commutative monoid (`sum_split_384`).

  * `gruRef`: three separate gates (update, reset, candidate), `σ z = 1 / (1 + e^(−z))`, and the blend
    `(1 − u) · n + u · h`, where the candidate gate sees `h ⊙ r` in place of `h`.
  * `gruFused`: the update and reset gates computed TOGETHER as one 256-column gate — first-layer weights side by
    side `[Wu₁ | Wr₁]`, second-layer weights block diagonal `[[Wu₂, 0], [0, Wr₂]]` — then cut back into its two
    128-column halves.

  They agree on all extended reals (no finiteness is used): column `c` of the fused first layer only ever meets
  column `c` of one of the two matrices, and in the fused second layer the 256-term sum splits into the 128 terms
  that meet the gate's own block and 128 terms that meet the zero block, each of which is `t · 0 = 0` for every
  extended real `t`.
-/
import Idealize.ShloMosaic.PureOps.Ideal
import Mathlib.Algebra.BigOperators.Fin

set_option maxHeartbeats 40000

noncomputable section

namespace Cert.Gru

open Idealize.ShloMosaic
open scoped BigOperators

/-! ## Positions in a joined axis -/

/-- Position `k` of the first half of a 256-long axis. -/
abbrev lo (k : Fin 128) : Fin 256 := ⟨k.val, by omega⟩
/-- Position `k` of the second half of a 256-long axis. -/
abbrev hi (k : Fin 128) : Fin 256 := ⟨128 + k.val, by omega⟩
/-- Row `q` of the part of a 384-row matrix that meets the hidden state. -/
abbrev rowH (q : Fin 128) : Fin 384 := ⟨q.val, by omega⟩
/-- Row `q` of the part of a 384-row matrix that meets the input. -/
abbrev rowX (q : Fin 256) : Fin 384 := ⟨128 + q.val, by omega⟩

/-- A sum over 384 = 128 + 256 indices is the sum over the first 128 plus the sum over the last 256. -/
theorem sum_split_384 (f : Fin 384 → EReal) : ∑ q : Fin 384, f q = (∑ k : Fin 128, f (rowH k)) + ∑ k : Fin 256, f (rowX k) :=
  Fin.sum_univ_add (a := 128) (b := 256) f

/-- A sum over 256 = 128 + 128 indices is the sum over the first 128 plus the sum over the last 128. -/
theorem sum_split_256 (f : Fin 256 → EReal) : ∑ q : Fin 256, f q = (∑ k : Fin 128, f (lo k)) + ∑ k : Fin 128, f (hi k) :=
  Fin.sum_univ_add (a := 128) (b := 128) f

/-! ## The reference arrangement: three gates -/

/-- First layer of a gate before the `tanh`, at hidden unit `k`: `(h ++ x) · W₁[:, k] + b₁[k]`, the product split at the joint. -/
def pre (h : Fin 128 → EReal) (x : Fin 256 → EReal) (W1 : Fin 384 → Fin 128 → EReal) (b1 : Fin 128 → EReal) (k : Fin 128) : EReal :=
  ((∑ q : Fin 128, h q * W1 (rowH q) k) + ∑ q : Fin 256, x q * W1 (rowX q) k) + b1 k

/-- A gate before its squashing, at output column `j`: `tanh (pre) · W₂[:, j] + b₂[j]`. -/
def mlp (h : Fin 128 → EReal) (x : Fin 256 → EReal) (W1 : Fin 384 → Fin 128 → EReal) (b1 : Fin 128 → EReal)
    (W2 : Fin 128 → Fin 128 → EReal) (b2 : Fin 128 → EReal) (j : Fin 128) : EReal :=
  (∑ k : Fin 128, Ideal.tanh (pre h x W1 b1 k) * W2 k j) + b2 j

/-- The logistic function as the quotient `1 / (1 + e^(−z))`, with the extended reals' conventions at the infinities. -/
def sig (z : EReal) : EReal := Ideal.div 1 (1 + Ideal.exp (-z))

/-- The logistic function of the ideal instance is that quotient, by definition. -/
theorem logistic_eq_sig (z : EReal) : Ideal.logistic z = sig z := rfl

/-- The blend of a candidate `n` and the old state `h` under an update gate `u`: `(1 − u) · n + u · h`. -/
def blend (u n h : EReal) : EReal := (1 - u) * n + u * h

/-- The GRU row: update gate `u`, reset gate `r`, candidate `n` computed from `h ⊙ r`, blended `(1 − u) · n + u · h`. -/
def gruRef (h : Fin 128 → EReal) (x : Fin 256 → EReal)
    (Wu1 : Fin 384 → Fin 128 → EReal) (bu1 : Fin 128 → EReal) (Wu2 : Fin 128 → Fin 128 → EReal) (bu2 : Fin 128 → EReal)
    (Wr1 : Fin 384 → Fin 128 → EReal) (br1 : Fin 128 → EReal) (Wr2 : Fin 128 → Fin 128 → EReal) (br2 : Fin 128 → EReal)
    (Wn1 : Fin 384 → Fin 128 → EReal) (bn1 : Fin 128 → EReal) (Wn2 : Fin 128 → Fin 128 → EReal) (bn2 : Fin 128 → EReal)
    (j : Fin 128) : EReal :=
  blend (sig (mlp h x Wu1 bu1 Wu2 bu2 j))
    (mlp (fun k => h k * sig (mlp h x Wr1 br1 Wr2 br2 k)) x Wn1 bn1 Wn2 bn2 j) (h j)

/-! ## The fused arrangement: update and reset as one 256-column gate -/

/-- Fused first layer at column `c` of 256: `h · A[:, c] + x · B[:, c] + b[c]`. -/
def fused1 (h : Fin 128 → EReal) (x : Fin 256 → EReal) (A : Fin 128 → Fin 256 → EReal) (B : Fin 256 → Fin 256 → EReal)
    (b : Fin 256 → EReal) (c : Fin 256) : EReal :=
  ((∑ q : Fin 128, h q * A q c) + ∑ q : Fin 256, x q * B q c) + b c

/-- Fused second layer at column `c` of 256 over first-layer values `l`: `tanh l · C[:, c] + d[c]`, a sum over all 256 hidden units. -/
def fused2 (l : Fin 256 → EReal) (C : Fin 256 → Fin 256 → EReal) (d : Fin 256 → EReal) (c : Fin 256) : EReal :=
  (∑ k : Fin 256, Ideal.tanh (l k) * C k c) + d c

/-- First layer of the candidate gate with its matrix already cut at the joint: `hr · P[:, k] + x · Q[:, k] + e[k]`. -/
def cand1 (hr : Fin 128 → EReal) (x : Fin 256 → EReal) (P : Fin 128 → Fin 128 → EReal) (Q : Fin 256 → Fin 128 → EReal)
    (e : Fin 128 → EReal) (k : Fin 128) : EReal :=
  ((∑ q : Fin 128, hr q * P q k) + ∑ q : Fin 256, x q * Q q k) + e k

/-- Second layer of the candidate gate over first-layer values `l`. -/
def cand2 (l : Fin 128 → EReal) (R : Fin 128 → Fin 128 → EReal) (f : Fin 128 → EReal) (j : Fin 128) : EReal :=
  (∑ k : Fin 128, Ideal.tanh (l k) * R k j) + f j

/-- The GRU row as the fused arrangement computes it, from the squashed fused gate `g` (256 columns): columns `0‥127` of
    `g` are the update gate, columns `128‥255` the reset gate. -/
def gruFusedOf (g : Fin 256 → EReal) (h : Fin 128 → EReal) (x : Fin 256 → EReal)
    (P : Fin 128 → Fin 128 → EReal) (Q : Fin 256 → Fin 128 → EReal) (e : Fin 128 → EReal)
    (R : Fin 128 → Fin 128 → EReal) (f : Fin 128 → EReal) (j : Fin 128) : EReal :=
  blend (g (lo j)) (cand2 (cand1 (fun q => h q * g (hi q)) x P Q e) R f j) (h j)

/-- The squashed fused gate. -/
def fusedGate (h : Fin 128 → EReal) (x : Fin 256 → EReal) (A : Fin 128 → Fin 256 → EReal) (B : Fin 256 → Fin 256 → EReal)
    (b : Fin 256 → EReal) (C : Fin 256 → Fin 256 → EReal) (d : Fin 256 → EReal) (c : Fin 256) : EReal :=
  Ideal.logistic (fused2 (fused1 h x A B b) C d c)

/-- The GRU row as the fused arrangement computes it. -/
def gruFused (h : Fin 128 → EReal) (x : Fin 256 → EReal) (A : Fin 128 → Fin 256 → EReal) (B : Fin 256 → Fin 256 → EReal)
    (b : Fin 256 → EReal) (C : Fin 256 → Fin 256 → EReal) (d : Fin 256 → EReal)
    (P : Fin 128 → Fin 128 → EReal) (Q : Fin 256 → Fin 128 → EReal) (e : Fin 128 → EReal)
    (R : Fin 128 → Fin 128 → EReal) (f : Fin 128 → EReal) (j : Fin 128) : EReal :=
  gruFusedOf (fusedGate h x A B b C d) h x P Q e R f j

/-! ## The two arrangements agree, layer by layer -/

section Agree

variable (h : Fin 128 → EReal) (x : Fin 256 → EReal)

/-- Column `c` of a fused first layer whose column `c` holds the matrix `W`'s column `k` (rows cut at the joint) and
    whose bias holds `w`'s entry `k` is `W`'s own first layer at `k`. -/
theorem fused1_eq_pre (A : Fin 128 → Fin 256 → EReal) (B : Fin 256 → Fin 256 → EReal) (b : Fin 256 → EReal)
    (W : Fin 384 → Fin 128 → EReal) (w : Fin 128 → EReal) (c : Fin 256) (k : Fin 128)
    (hA : ∀ q : Fin 128, A q c = W (rowH q) k) (hB : ∀ q : Fin 256, B q c = W (rowX q) k) (hb : b c = w k) :
    fused1 h x A B b c = pre h x W w k := by
  unfold fused1 pre
  rw [hb]
  refine congrArg (· + w k) (congrArg₂ (· + ·) (Finset.sum_congr rfl fun q _ => ?_) (Finset.sum_congr rfl fun q _ => ?_))
  · rw [hA q]
  · rw [hB q]

/-- Column `lo c` of a fused second layer whose upper-left block is `W₂` and whose lower-left block is zero: only the
    first 128 hidden units contribute, the others meet `0`. -/
theorem fused2_lo (l : Fin 256 → EReal) (C : Fin 256 → Fin 256 → EReal) (d : Fin 256 → EReal)
    (l' : Fin 128 → EReal) (W2 : Fin 128 → Fin 128 → EReal) (w2 : Fin 128 → EReal) (c : Fin 128)
    (hl : ∀ k : Fin 128, l (lo k) = l' k)
    (hC : ∀ k : Fin 128, C (lo k) (lo c) = W2 k c) (hC0 : ∀ k : Fin 128, C (hi k) (lo c) = 0) (hd : d (lo c) = w2 c) :
    fused2 l C d (lo c) = (∑ k : Fin 128, Ideal.tanh (l' k) * W2 k c) + w2 c := by
  unfold fused2
  rw [hd, sum_split_256]
  refine congrArg (· + w2 c) ((congrArg₂ (· + ·) (Finset.sum_congr rfl fun k _ => ?_) (Finset.sum_eq_zero fun k _ => ?_)).trans (add_zero _))
  · rw [hl k, hC k]
  · rw [hC0 k, mul_zero]

/-- Column `hi c` of a fused second layer whose lower-right block is `W₂` and whose upper-right block is zero. -/
theorem fused2_hi (l : Fin 256 → EReal) (C : Fin 256 → Fin 256 → EReal) (d : Fin 256 → EReal)
    (l' : Fin 128 → EReal) (W2 : Fin 128 → Fin 128 → EReal) (w2 : Fin 128 → EReal) (c : Fin 128)
    (hl : ∀ k : Fin 128, l (hi k) = l' k)
    (hC : ∀ k : Fin 128, C (hi k) (hi c) = W2 k c) (hC0 : ∀ k : Fin 128, C (lo k) (hi c) = 0) (hd : d (hi c) = w2 c) :
    fused2 l C d (hi c) = (∑ k : Fin 128, Ideal.tanh (l' k) * W2 k c) + w2 c := by
  unfold fused2
  rw [hd, sum_split_256]
  refine congrArg (· + w2 c) ((congrArg₂ (· + ·) (Finset.sum_eq_zero fun k _ => ?_) (Finset.sum_congr rfl fun k _ => ?_)).trans (zero_add _))
  · rw [hC0 k, mul_zero]
  · rw [hl k, hC k]

/-- The candidate gate's first layer over a matrix cut at the joint is `pre` over the whole matrix. -/
theorem cand1_eq_pre (hr : Fin 128 → EReal) (P : Fin 128 → Fin 128 → EReal) (Q : Fin 256 → Fin 128 → EReal)
    (W : Fin 384 → Fin 128 → EReal) (e : Fin 128 → EReal) (k : Fin 128)
    (hP : ∀ q : Fin 128, P q k = W (rowH q) k) (hQ : ∀ q : Fin 256, Q q k = W (rowX q) k) :
    cand1 hr x P Q e k = pre hr x W e k := by
  unfold cand1 pre
  refine congrArg (· + e k) (congrArg₂ (· + ·) (Finset.sum_congr rfl fun q _ => ?_) (Finset.sum_congr rfl fun q _ => ?_))
  · rw [hP q]
  · rw [hQ q]

end Agree

/-- The fused arrangement over side-by-side first-layer weights, a block-diagonal second layer and the candidate
    matrix cut at the joint is the three-gate arrangement. The hypotheses say, entry by entry, what the fused
    arrays hold. -/
theorem gruFused_eq (h : Fin 128 → EReal) (x : Fin 256 → EReal)
    (Wu1 : Fin 384 → Fin 128 → EReal) (bu1 : Fin 128 → EReal) (Wu2 : Fin 128 → Fin 128 → EReal) (bu2 : Fin 128 → EReal)
    (Wr1 : Fin 384 → Fin 128 → EReal) (br1 : Fin 128 → EReal) (Wr2 : Fin 128 → Fin 128 → EReal) (br2 : Fin 128 → EReal)
    (Wn1 : Fin 384 → Fin 128 → EReal) (bn1 : Fin 128 → EReal) (Wn2 : Fin 128 → Fin 128 → EReal) (bn2 : Fin 128 → EReal)
    (A : Fin 128 → Fin 256 → EReal) (B : Fin 256 → Fin 256 → EReal) (b : Fin 256 → EReal)
    (C : Fin 256 → Fin 256 → EReal) (d : Fin 256 → EReal) (P : Fin 128 → Fin 128 → EReal) (Q : Fin 256 → Fin 128 → EReal)
    (hA_lo : ∀ (q k : Fin 128), A q (lo k) = Wu1 (rowH q) k) (hA_hi : ∀ (q k : Fin 128), A q (hi k) = Wr1 (rowH q) k)
    (hB_lo : ∀ (q : Fin 256) (k : Fin 128), B q (lo k) = Wu1 (rowX q) k)
    (hB_hi : ∀ (q : Fin 256) (k : Fin 128), B q (hi k) = Wr1 (rowX q) k)
    (hb_lo : ∀ k : Fin 128, b (lo k) = bu1 k) (hb_hi : ∀ k : Fin 128, b (hi k) = br1 k)
    (hC_ll : ∀ k j : Fin 128, C (lo k) (lo j) = Wu2 k j) (hC_lh : ∀ k j : Fin 128, C (lo k) (hi j) = 0)
    (hC_hl : ∀ k j : Fin 128, C (hi k) (lo j) = 0) (hC_hh : ∀ k j : Fin 128, C (hi k) (hi j) = Wr2 k j)
    (hd_lo : ∀ j : Fin 128, d (lo j) = bu2 j) (hd_hi : ∀ j : Fin 128, d (hi j) = br2 j)
    (hP : ∀ (q k : Fin 128), P q k = Wn1 (rowH q) k) (hQ : ∀ (q : Fin 256) (k : Fin 128), Q q k = Wn1 (rowX q) k)
    (j : Fin 128) :
    gruFused h x A B b C d P Q bn1 Wn2 bn2 j
      = gruRef h x Wu1 bu1 Wu2 bu2 Wr1 br1 Wr2 br2 Wn1 bn1 Wn2 bn2 j := by
  -- the squashed fused gate, half by half, is the squashed update and reset gates
  have Glo : ∀ c : Fin 128, fusedGate h x A B b C d (lo c) = sig (mlp h x Wu1 bu1 Wu2 bu2 c) := fun c =>
    congrArg Ideal.logistic (fused2_lo (fused1 h x A B b) C d (pre h x Wu1 bu1) Wu2 bu2 c
      (fun k => fused1_eq_pre h x A B b Wu1 bu1 (lo k) k (fun q => hA_lo q k) (fun q => hB_lo q k) (hb_lo k))
      (fun k => hC_ll k c) (fun k => hC_hl k c) (hd_lo c))
  have Ghi : ∀ c : Fin 128, fusedGate h x A B b C d (hi c) = sig (mlp h x Wr1 br1 Wr2 br2 c) := fun c =>
    congrArg Ideal.logistic (fused2_hi (fused1 h x A B b) C d (pre h x Wr1 br1) Wr2 br2 c
      (fun k => fused1_eq_pre h x A B b Wr1 br1 (hi k) k (fun q => hA_hi q k) (fun q => hB_hi q k) (hb_hi k))
      (fun k => hC_hh k c) (fun k => hC_lh k c) (hd_hi c))
  -- the reset row, and the candidate gate's first layer on it
  have Hr : (fun q => h q * fusedGate h x A B b C d (hi q)) = fun q => h q * sig (mlp h x Wr1 br1 Wr2 br2 q) :=
    funext fun q => by rw [Ghi q]
  have N1 : cand1 (fun q => h q * sig (mlp h x Wr1 br1 Wr2 br2 q)) x P Q bn1
      = pre (fun q => h q * sig (mlp h x Wr1 br1 Wr2 br2 q)) x Wn1 bn1 :=
    funext fun k => cand1_eq_pre x _ P Q Wn1 bn1 k (fun q => hP q k) (fun q => hQ q k)
  unfold gruFused gruFusedOf gruRef
  rw [Glo j, Hr, N1]
  rfl

end Cert.Gru

end
-- ==== Proof.RefRun.lean ====
/-
  The reference program's run, read back: its @main is a straight line of 52 host operations, so every weakly fair
  execution terminates with each buffer holding the operations' composed value of the arguments (`StableHlo.run_seq`).
  The composed value of the result buffer is named here as whole-array functions that follow the reference's own
  text: a dense layer on the joined rows `[y | x] · W + b` (`dense`), a gate `tanh (dense) · W₂ + b₂` (`gate`), the
  logistic quotient `1 / (1 + e^(−z))` (`sigA`) and the blend `(1 − u) ⊙ n + u ⊙ h` (`gruA`).

  The contents after the 52 operations are computed in three stretches — the update gate (operations 1–18), the reset
  gate (19–35), the candidate gate and the blend (36–52) — each stretch from an ARBITRARY valuation, so that what a
  later stretch reads of an earlier one is just a name; `after_append` joins them.
-/
import proofs.«150013_j72181220377171_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The reference's stages as whole-array functions -/

/-- A bias vector laid along every row. -/
def bias (b : (⟨S128, .f32⟩ : BufTy).Contents (Elt F)) : (⟨S262144x128, .f32⟩ : BufTy).Contents (Elt F) :=
  broadcastInDim S262144x128 ![0, 1] bcast_S1x128_S262144x128_0_1 (broadcastInDim S1x128 ![1] bcast_S128_S1x128_1 b)

/-- The constant one, everywhere. -/
def ones : (⟨S262144x128, .f32⟩ : BufTy).Contents (Elt F) :=
  broadcastInDim S262144x128 ![] bcast_S_S262144x128 (constant S_ .f32 0x3F800000#32)

/-- The rows `[y | x]` joined, times a 384-row matrix. -/
def joined (y : (⟨S262144x128, .f32⟩ : BufTy).Contents (Elt F)) (x : (⟨S262144x256, .f32⟩ : BufTy).Contents (Elt F)) (W : (⟨S384x128, .f32⟩ : BufTy).Contents (Elt F)) : (⟨S262144x128, .f32⟩ : BufTy).Contents (Elt F) :=
  Host.dotGeneral dot_S262144x384_S384x128_S262144x128_1_0_0_1_n_n none
    (concatenate S262144x384 1 [⟨S262144x128, y⟩, ⟨S262144x256, x⟩] concatenates_S262144x128_S262144x256_S262144x384_d1) W

/-- A gate before its squashing: `tanh ([y | x] · W₁ + b₁) · W₂ + b₂`. -/
def gate (y : (⟨S262144x128, .f32⟩ : BufTy).Contents (Elt F)) (x : (⟨S262144x256, .f32⟩ : BufTy).Contents (Elt F)) (W1 : (⟨S384x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) : (⟨S262144x128, .f32⟩ : BufTy).Contents (Elt F) :=
  addf (Host.dotGeneral dot_S262144x128_S128x128_S262144x128_1_0_0_1_n_n none (Host.tanh (addf (joined y x W1) (bias b1))) W2) (bias b2)

/-- The logistic function as the reference spells it: `1 / (1 + e^(−z))`. -/
def sigA (z : (⟨S262144x128, .f32⟩ : BufTy).Contents (Elt F)) : (⟨S262144x128, .f32⟩ : BufTy).Contents (Elt F) :=
  Host.divf ones (addf ones (Host.exp (Host.negf z)))

/-- The whole reference: `(1 − u) ⊙ n + u ⊙ h` with `u`, `r` the squashed update and reset gates of `[h | x]` and `n` the
    candidate gate of `[h ⊙ r | x]`. -/
def gruA (x : (⟨S262144x256, .f32⟩ : BufTy).Contents (Elt F)) (h : (⟨S262144x128, .f32⟩ : BufTy).Contents (Elt F))
    (Wu1 : (⟨S384x128, .f32⟩ : BufTy).Contents (Elt F)) (bu1 : (⟨S128, .f32⟩ : BufTy).Contents (Elt F)) (Wu2 : (⟨S128x128, .f32⟩ : BufTy).Contents (Elt F)) (bu2 : (⟨S128, .f32⟩ : BufTy).Contents (Elt F))
    (Wr1 : (⟨S384x128, .f32⟩ : BufTy).Contents (Elt F)) (br1 : (⟨S128, .f32⟩ : BufTy).Contents (Elt F)) (Wr2 : (⟨S128x128, .f32⟩ : BufTy).Contents (Elt F)) (br2 : (⟨S128, .f32⟩ : BufTy).Contents (Elt F))
    (Wn1 : (⟨S384x128, .f32⟩ : BufTy).Contents (Elt F)) (bn1 : (⟨S128, .f32⟩ : BufTy).Contents (Elt F)) (Wn2 : (⟨S128x128, .f32⟩ : BufTy).Contents (Elt F)) (bn2 : (⟨S128, .f32⟩ : BufTy).Contents (Elt F)) : (⟨S262144x128, .f32⟩ : BufTy).Contents (Elt F) :=
  addf (mulf (subf ones (sigA (gate h x Wu1 bu1 Wu2 bu2))) (gate (mulf h (sigA (gate h x Wr1 br1 Wr2 br2))) x Wn1 bn1 Wn2 bn2))
    (mulf (sigA (gate h x Wu1 bu1 Wu2 bu2)) h)

/-! ## @main as a list of operations, in three stretches -/

/-- Operations 1–18: the update gate. -/
abbrev opsA : List (HloOp τ sig (Elt F)) :=
  [ binary main_arg1 main_arg0 main_v0 ((fun a b => concatenate S262144x384 1 [⟨S262144x128, a⟩, ⟨S262144x256, b⟩] concatenates_S262144x128_S262144x256_S262144x384_d1) : (⟨S262144x128, .f32⟩ : BufTy).Contents (Elt F) → (⟨S262144x256, .f32⟩ : BufTy).Contents (Elt F) → (⟨S262144x384, .f32⟩ : BufTy).Contents (Elt F)),
    binary main_v0 main_arg2 main_v1 ((fun l r => Host.dotGeneral dot_S262144x384_S384x128_S262144x128_1_0_0_1_n_n none l r) : (⟨S262144x384, .f32⟩ : BufTy).Contents (Elt F) → (⟨S384x128, .f32⟩ : BufTy).Contents (Elt F) → (⟨S262144x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S262144x128 ![0, 1] bcast_S1x128_S262144x128_0_1 : (⟨S1x128, .f32⟩ : BufTy).Contents (Elt F) → (⟨S262144x128, .f32⟩ : BufTy).Contents (Elt F)),
    binary main_v1 main_v3 main_v4 (addf : (⟨S262144x128, .f32⟩ : BufTy).Contents (Elt F) → (⟨S262144x128, .f32⟩ : BufTy).Contents (Elt F) → (⟨S262144x128, .f32⟩ : BufTy).Contents (Elt F)),
    unary main_v4 main_v5 (Host.tanh : (⟨S262144x128, .f32⟩ : BufTy).Contents (Elt F) → (⟨S262144x128, .f32⟩ : BufTy).Contents (Elt F)),
    binary main_v5 main_arg4 main_v6 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg5 main_v7 (broadcastInDim S1x128 ![1] bcast_S128_S1x128_1 : (⟨S128, .f32⟩ : BufTy).Contents (Elt F) → (⟨S1x128, .f32⟩ : BufTy).Contents (Elt F)),
    unary main_v7 main_v8 (broadcastInDim S262144x128 ![0, 1] bcast_S1x128_S262144x128_0_1 : (⟨S1x128, .f32⟩ : BufTy).Contents (Elt F) → (⟨S262144x128, .f32⟩ : BufTy).Contents (Elt F)),
    binary main_v6 main_v8 main_v9 (addf : (⟨S262144x128, .f32⟩ : BufTy).Contents (Elt F) → (⟨S262144x128, .f32⟩ : BufTy).Contents (Elt F) → (⟨S262144x128, .f32⟩ : BufTy).Contents (Elt F)),
    unary main_v9 main_v10 (Host.negf : (⟨S262144x128, .f32⟩ : BufTy).Contents (Elt F) → (⟨S262144x128, .f32⟩ : BufTy).Contents (Elt F)),
    unary main_v10 main_v11 (Host.exp : (⟨S262144x128, .f32⟩ : BufTy).Contents (Elt F) → (⟨S262144x128, .f32⟩ : BufTy).Contents (Elt F)),
    nullary main_cst (constant S_ .f32 0x3F800000#32),
    unary main_cst main_v12 (broadcastInDim S262144x128 ![] bcast_S_S262144x128 : (⟨S_, .f32⟩ : BufTy).Contents (Elt F) → (⟨S262144x128, .f32⟩ : BufTy).Contents (Elt F)),
    binary main_v12 main_v11 main_v13 (addf : (⟨S262144x128, .f32⟩ : BufTy).Contents (Elt F) → (⟨S262144x128, .f32⟩ : BufTy).Contents (Elt F) → (⟨S262144x128, .f32⟩ : BufTy).Contents (Elt F)),
    nullary main_cst_0 (constant S_ .f32 0x3F800000#32),
    unary main_cst_0 main_v14 (broadcastInDim S262144x128 ![] bcast_S_S262144x128 : (⟨S_, .f32⟩ : BufTy).Contents (Elt F) → (⟨S262144x128, .f32⟩ : BufTy).Contents (Elt F)),
    binary main_v14 main_v13 main_v15 (Host.divf : (⟨S262144x128, .f32⟩ : BufTy).Contents (Elt F) → (⟨S262144x128, .f32⟩ : BufTy).Contents (Elt F) → (⟨S262144x128, .f32⟩ : BufTy).Contents (Elt F)) ]

/-- Operations 19–35: the reset gate. -/
abbrev opsB : List (HloOp τ sig (Elt F)) :=
  [ binary main_v0 main_arg6 main_v16 ((fun l r => Host.dotGeneral dot_S262144x384_S384x128_S262144x128_1_0_0_1_n_n none l r) : (⟨S262144x384, .f32⟩ : BufTy).Contents (Elt F) → (⟨S384x128, .f32⟩ : BufTy).Contents (Elt F) → (⟨S262144x128, .f32⟩ : BufTy).Contents (Elt F)),
    unary main_arg7 main_v17 (broadcastInDim S1x128 ![1] bcast_S128_S1x128_1 : (⟨S128, .f32⟩ : BufTy).Contents (Elt F) → (⟨S1x128, .f32⟩ : BufTy).Contents (Elt F)),
    unary main_v17 main_v18 (broadcastInDim S262144x128 ![0, 1] bcast_S1x128_S262144x128_0_1 : (⟨S1x128, .f32⟩ : BufTy).Contents (Elt F) → (⟨S262144x128, .f32⟩ : BufTy).Contents (Elt F)),
    binary main_v16 main_v18 main_v19 (addf : (⟨S262144x128, .f32⟩ : BufTy).Contents (Elt F) → (⟨S262144x128, .f32⟩ : BufTy).Contents (Elt F) → (⟨S262144x128, .f32⟩ : BufTy).Contents (Elt F)),
    unary main_v19 main_v20 (Host.tanh : (⟨S262144x128, .f32⟩ : BufTy).Contents (Elt F) → (⟨S262144x128, .f32⟩ : BufTy).Contents (Elt F)),
    binary main_v20 main_arg8 main_v21 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg9 main_v22 (broadcastInDim S1x128 ![1] bcast_S128_S1x128_1 : (⟨S128, .f32⟩ : BufTy).Contents (Elt F) → (⟨S1x128, .f32⟩ : BufTy).Contents (Elt F)),
    unary main_v22 main_v23 (broadcastInDim S262144x128 ![0, 1] bcast_S1x128_S262144x128_0_1 : (⟨S1x128, .f32⟩ : BufTy).Contents (Elt F) → (⟨S262144x128, .f32⟩ : BufTy).Contents (Elt F)),
    binary main_v21 main_v23 main_v24 (addf : (⟨S262144x128, .f32⟩ : BufTy).Contents (Elt F) → (⟨S262144x128, .f32⟩ : BufTy).Contents (Elt F) → (⟨S262144x128, .f32⟩ : BufTy).Contents (Elt F)),
    unary main_v24 main_v25 (Host.negf : (⟨S262144x128, .f32⟩ : BufTy).Contents (Elt F) → (⟨S262144x128, .f32⟩ : BufTy).Contents (Elt F)),
    unary main_v25 main_v26 (Host.exp : (⟨S262144x128, .f32⟩ : BufTy).Contents (Elt F) → (⟨S262144x128, .f32⟩ : BufTy).Contents (Elt F)),
    nullary main_cst_1 (constant S_ .f32 0x3F800000#32),
    unary main_cst_1 main_v27 (broadcastInDim S262144x128 ![] bcast_S_S262144x128 : (⟨S_, .f32⟩ : BufTy).Contents (Elt F) → (⟨S262144x128, .f32⟩ : BufTy).Contents (Elt F)),
    binary main_v27 main_v26 main_v28 (addf : (⟨S262144x128, .f32⟩ : BufTy).Contents (Elt F) → (⟨S262144x128, .f32⟩ : BufTy).Contents (Elt F) → (⟨S262144x128, .f32⟩ : BufTy).Contents (Elt F)),
    nullary main_cst_2 (constant S_ .f32 0x3F800000#32),
    unary main_cst_2 main_v29 (broadcastInDim S262144x128 ![] bcast_S_S262144x128 : (⟨S_, .f32⟩ : BufTy).Contents (Elt F) → (⟨S262144x128, .f32⟩ : BufTy).Contents (Elt F)),
    binary main_v29 main_v28 main_v30 (Host.divf : (⟨S262144x128, .f32⟩ : BufTy).Contents (Elt F) → (⟨S262144x128, .f32⟩ : BufTy).Contents (Elt F) → (⟨S262144x128, .f32⟩ : BufTy).Contents (Elt F)) ]

/-- Operations 36–52: the candidate gate and the blend. -/
abbrev opsC : List (HloOp τ sig (Elt F)) :=
  [ binary main_arg1 main_v30 main_v31 (mulf : (⟨S262144x128, .f32⟩ : BufTy).Contents (Elt F) → (⟨S262144x128, .f32⟩ : BufTy).Contents (Elt F) → (⟨S262144x128, .f32⟩ : BufTy).Contents (Elt F)),
    binary main_v31 main_arg0 main_v32 ((fun a b => concatenate S262144x384 1 [⟨S262144x128, a⟩, ⟨S262144x256, b⟩] concatenates_S262144x128_S262144x256_S262144x384_d1) : (⟨S262144x128, .f32⟩ : BufTy).Contents (Elt F) → (⟨S262144x256, .f32⟩ : BufTy).Contents (Elt F) → (⟨S262144x384, .f32⟩ : BufTy).Contents (Elt F)),
    binary main_v32 main_arg10 main_v33 ((fun l r => Host.dotGeneral dot_S262144x384_S384x128_S262144x128_1_0_0_1_n_n none l r) : (⟨S262144x384, .f32⟩ : BufTy).Contents (Elt F) → (⟨S384x128, .f32⟩ : BufTy).Contents (Elt F) → (⟨S262144x128, .f32⟩ : BufTy).Contents (Elt F)),
    unary main_arg11 main_v34 (broadcastInDim S1x128 ![1] bcast_S128_S1x128_1 : (⟨S128, .f32⟩ : BufTy).Contents (Elt F) → (⟨S1x128, .f32⟩ : BufTy).Contents (Elt F)),
    unary main_v34 main_v35 (broadcastInDim S262144x128 ![0, 1] bcast_S1x128_S262144x128_0_1 : (⟨S1x128, .f32⟩ : BufTy).Contents (Elt F) → (⟨S262144x128, .f32⟩ : BufTy).Contents (Elt F)),
    binary main_v33 main_v35 main_v36 (addf : (⟨S262144x128, .f32⟩ : BufTy).Contents (Elt F) → (⟨S262144x128, .f32⟩ : BufTy).Contents (Elt F) → (⟨S262144x128, .f32⟩ : BufTy).Contents (Elt F)),
    unary main_v36 main_v37 (Host.tanh : (⟨S262144x128, .f32⟩ : BufTy).Contents (Elt F) → (⟨S262144x128, .f32⟩ : BufTy).Contents (Elt F)),
    binary main_v37 main_arg12 main_v38 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg13 main_v39 (broadcastInDim S1x128 ![1] bcast_S128_S1x128_1 : (⟨S128, .f32⟩ : BufTy).Contents (Elt F) → (⟨S1x128, .f32⟩ : BufTy).Contents (Elt F)),
    unary main_v39 main_v40 (broadcastInDim S262144x128 ![0, 1] bcast_S1x128_S262144x128_0_1 : (⟨S1x128, .f32⟩ : BufTy).Contents (Elt F) → (⟨S262144x128, .f32⟩ : BufTy).Contents (Elt F)),
    binary main_v38 main_v40 main_v41 (addf : (⟨S262144x128, .f32⟩ : BufTy).Contents (Elt F) → (⟨S262144x128, .f32⟩ : BufTy).Contents (Elt F) → (⟨S262144x128, .f32⟩ : BufTy).Contents (Elt F)),
    nullary main_cst_3 (constant S_ .f32 0x3F800000#32),
    unary main_cst_3 main_v42 (broadcastInDim S262144x128 ![] bcast_S_S262144x128 : (⟨S_, .f32⟩ : BufTy).Contents (Elt F) → (⟨S262144x128, .f32⟩ : BufTy).Contents (Elt F)),
    binary main_v42 main_v15 main_v43 (subf : (⟨S262144x128, .f32⟩ : BufTy).Contents (Elt F) → (⟨S262144x128, .f32⟩ : BufTy).Contents (Elt F) → (⟨S262144x128, .f32⟩ : BufTy).Contents (Elt F)),
    binary main_v43 main_v41 main_v44 (mulf : (⟨S262144x128, .f32⟩ : BufTy).Contents (Elt F) → (⟨S262144x128, .f32⟩ : BufTy).Contents (Elt F) → (⟨S262144x128, .f32⟩ : BufTy).Contents (Elt F)),
    binary main_v15 main_arg1 main_v45 (mulf : (⟨S262144x128, .f32⟩ : BufTy).Contents (Elt F) → (⟨S262144x128, .f32⟩ : BufTy).Contents (Elt F) → (⟨S262144x128, .f32⟩ : BufTy).Contents (Elt F)),
    binary main_v44 main_v45 main_v46 (addf : (⟨S262144x128, .f32⟩ : BufTy).Contents (Elt F) → (⟨S262144x128, .f32⟩ : BufTy).Contents (Elt F) → (⟨S262144x128, .f32⟩ : BufTy).Contents (Elt F)) ]

/-- @main's 52 operations, in order. -/
abbrev ops : List (HloOp τ sig (Elt F)) := opsA ++ (opsB ++ opsC)

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig := by
  simp only [opsA, List.Forall, binary_bufs_sub, unary_bufs_sub, nullary_bufs_sub, and_self]
theorem opsB_sub : (opsB : List (HloOp τ sig (Elt F))).Forall fun op => op.bufs ⊆ tcRefs τ sig := by
  simp only [opsB, List.Forall, binary_bufs_sub, unary_bufs_sub, nullary_bufs_sub, and_self]
theorem opsC_sub : (opsC : List (HloOp τ sig (Elt F))).Forall fun op => op.bufs ⊆ tcRefs τ sig := by
  simp only [opsC, List.Forall, binary_bufs_sub, unary_bufs_sub, nullary_bufs_sub, and_self]

theorem ops_sub : (ops : List (HloOp τ sig (Elt F))).Forall fun op => op.bufs ⊆ tcRefs τ sig := by
  unfold ops
  rw [List.forall_append, List.forall_append]
  exact ⟨opsA_sub, opsB_sub, opsC_sub⟩

/-- Running one list after another composes the contents. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The first stretch -/

theorem A_v15 (V : Valuation τ sig (Elt F)) : after opsA V (Proc.devRef .tc main_v15)
    = sigA (gate (V (Proc.devRef .tc main_arg1)) (V (Proc.devRef .tc main_arg0)) (V (Proc.devRef .tc main_arg2)) (V (Proc.devRef .tc main_arg3)) (V (Proc.devRef .tc main_arg4)) (V (Proc.devRef .tc main_arg5))) := by
  after_results_simp
  try rfl

theorem A_v0 (V : Valuation τ sig (Elt F)) : after opsA V (Proc.devRef .tc main_v0)
    = concatenate S262144x384 1 [⟨S262144x128, (V (Proc.devRef .tc main_arg1))⟩, ⟨S262144x256, (V (Proc.devRef .tc main_arg0))⟩] concatenates_S262144x128_S262144x256_S262144x384_d1 := by
  after_results_simp

theorem A_main_arg0 (V : Valuation τ sig (Elt F)) : after opsA V (Proc.devRef .tc main_arg0) = V (Proc.devRef .tc main_arg0) := by after_results_simp
theorem A_main_arg1 (V : Valuation τ sig (Elt F)) : after opsA V (Proc.devRef .tc main_arg1) = V (Proc.devRef .tc main_arg1) := by after_results_simp
theorem A_main_arg6 (V : Valuation τ sig (Elt F)) : after opsA V (Proc.devRef .tc main_arg6) = V (Proc.devRef .tc main_arg6) := by after_results_simp
theorem A_main_arg7 (V : Valuation τ sig (Elt F)) : after opsA V (Proc.devRef .tc main_arg7) = V (Proc.devRef .tc main_arg7) := by after_results_simp
theorem A_main_arg8 (V : Valuation τ sig (Elt F)) : after opsA V (Proc.devRef .tc main_arg8) = V (Proc.devRef .tc main_arg8) := by after_results_simp
theorem A_main_arg9 (V : Valuation τ sig (Elt F)) : after opsA V (Proc.devRef .tc main_arg9) = V (Proc.devRef .tc main_arg9) := by after_results_simp
theorem A_main_arg10 (V : Valuation τ sig (Elt F)) : after opsA V (Proc.devRef .tc main_arg10) = V (Proc.devRef .tc main_arg10) := by after_results_simp
theorem A_main_arg11 (V : Valuation τ sig (Elt F)) : after opsA V (Proc.devRef .tc main_arg11) = V (Proc.devRef .tc main_arg11) := by after_results_simp
theorem A_main_arg12 (V : Valuation τ sig (Elt F)) : after opsA V (Proc.devRef .tc main_arg12) = V (Proc.devRef .tc main_arg12) := by after_results_simp
theorem A_main_arg13 (V : Valuation τ sig (Elt F)) : after opsA V (Proc.devRef .tc main_arg13) = V (Proc.devRef .tc main_arg13) := by after_results_simp

/-! ## The second stretch -/

theorem B_v30 (W : Valuation τ sig (Elt F)) : after opsB W (Proc.devRef .tc main_v30)
    = sigA (addf (Host.dotGeneral dot_S262144x128_S128x128_S262144x128_1_0_0_1_n_n none
        (Host.tanh (addf (Host.dotGeneral dot_S262144x384_S384x128_S262144x128_1_0_0_1_n_n none (W (Proc.devRef .tc main_v0)) (W (Proc.devRef .tc main_arg6))) (bias (W (Proc.devRef .tc main_arg7)))))
        (W (Proc.devRef .tc main_arg8))) (bias (W (Proc.devRef .tc main_arg9)))) := by
  after_results_simp
  try rfl

theorem B_main_v15 (W : Valuation τ sig (Elt F)) : after opsB W (Proc.devRef .tc main_v15) = W (Proc.devRef .tc main_v15) := by after_results_simp
theorem B_main_arg0 (W : Valuation τ sig (Elt F)) : after opsB W (Proc.devRef .tc main_arg0) = W (Proc.devRef .tc main_arg0) := by after_results_simp
theorem B_main_arg1 (W : Valuation τ sig (Elt F)) : after opsB W (Proc.devRef .tc main_arg1) = W (Proc.devRef .tc main_arg1) := by after_results_simp
theorem B_main_arg10 (W : Valuation τ sig (Elt F)) : after opsB W (Proc.devRef .tc main_arg10) = W (Proc.devRef .tc main_arg10) := by after_results_simp
theorem B_main_arg11 (W : Valuation τ sig (Elt F)) : after opsB W (Proc.devRef .tc main_arg11) = W (Proc.devRef .tc main_arg11) := by after_results_simp
theorem B_main_arg12 (W : Valuation τ sig (Elt F)) : after opsB W (Proc.devRef .tc main_arg12) = W (Proc.devRef .tc main_arg12) := by after_results_simp
theorem B_main_arg13 (W : Valuation τ sig (Elt F)) : after opsB W (Proc.devRef .tc main_arg13) = W (Proc.devRef .tc main_arg13) := by after_results_simp

/-! ## The third stretch -/

theorem C_v46 (W : Valuation τ sig (Elt F)) : after opsC W (Proc.devRef .tc main_v46)
    = addf (mulf (subf ones (W (Proc.devRef .tc main_v15))) (gate (mulf (W (Proc.devRef .tc main_arg1)) (W (Proc.devRef .tc main_v30))) (W (Proc.devRef .tc main_arg0)) (W (Proc.devRef .tc main_arg10)) (W (Proc.devRef .tc main_arg11)) (W (Proc.devRef .tc main_arg12)) (W (Proc.devRef .tc main_arg13))))
        (mulf (W (Proc.devRef .tc main_v15)) (W (Proc.devRef .tc main_arg1))) := by
  after_results_simp
  try rfl

/-! ## The result buffer after all 52 operations -/

theorem result_v46 (V : Valuation τ sig (Elt F)) : after ops V (Proc.devRef .tc main_v46)
    = gruA (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold ops
  rw [after_append, after_append, C_v46, B_v30, B_main_v15, B_main_arg0, B_main_arg1, B_main_arg10, B_main_arg11, B_main_arg12, B_main_arg13, A_v15, A_v0, A_main_arg0, A_main_arg1, A_main_arg6, A_main_arg7, A_main_arg8, A_main_arg9, A_main_arg10, A_main_arg11, A_main_arg12, A_main_arg13]
  rfl

/-- No operation of a stretch writes an argument buffer. -/
theorem keptA (V : Valuation τ sig (Elt F)) :
    after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7)
    ∧ after opsA V (Proc.devRef .tc main_arg8) = V (Proc.devRef .tc main_arg8)
    ∧ after opsA V (Proc.devRef .tc main_arg9) = V (Proc.devRef .tc main_arg9)
    ∧ after opsA V (Proc.devRef .tc main_arg10) = V (Proc.devRef .tc main_arg10)
    ∧ after opsA V (Proc.devRef .tc main_arg11) = V (Proc.devRef .tc main_arg11)
    ∧ after opsA V (Proc.devRef .tc main_arg12) = V (Proc.devRef .tc main_arg12)
    ∧ after opsA V (Proc.devRef .tc main_arg13) = V (Proc.devRef .tc main_arg13) := by
  refine ⟨?_, ?_, ?_, ?_, ?_, ?_, ?_, ?_, ?_, ?_, ?_, ?_, ?_, ?_⟩ <;> after_results_simp
theorem keptB (V : Valuation τ sig (Elt F)) :
    after opsB V (Proc.devRef .tc main_arg0) = V (Proc.devRef .tc main_arg0)
    ∧ after opsB V (Proc.devRef .tc main_arg1) = V (Proc.devRef .tc main_arg1)
    ∧ after opsB V (Proc.devRef .tc main_arg2) = V (Proc.devRef .tc main_arg2)
    ∧ after opsB V (Proc.devRef .tc main_arg3) = V (Proc.devRef .tc main_arg3)
    ∧ after opsB V (Proc.devRef .tc main_arg4) = V (Proc.devRef .tc main_arg4)
    ∧ after opsB V (Proc.devRef .tc main_arg5) = V (Proc.devRef .tc main_arg5)
    ∧ after opsB V (Proc.devRef .tc main_arg6) = V (Proc.devRef .tc main_arg6)
    ∧ after opsB V (Proc.devRef .tc main_arg7) = V (Proc.devRef .tc main_arg7)
    ∧ after opsB V (Proc.devRef .tc main_arg8) = V (Proc.devRef .tc main_arg8)
    ∧ after opsB V (Proc.devRef .tc main_arg9) = V (Proc.devRef .tc main_arg9)
    ∧ after opsB V (Proc.devRef .tc main_arg10) = V (Proc.devRef .tc main_arg10)
    ∧ after opsB V (Proc.devRef .tc main_arg11) = V (Proc.devRef .tc main_arg11)
    ∧ after opsB V (Proc.devRef .tc main_arg12) = V (Proc.devRef .tc main_arg12)
    ∧ after opsB V (Proc.devRef .tc main_arg13) = V (Proc.devRef .tc main_arg13) := by
  refine ⟨?_, ?_, ?_, ?_, ?_, ?_, ?_, ?_, ?_, ?_, ?_, ?_, ?_, ?_⟩ <;> after_results_simp
theorem keptC (V : Valuation τ sig (Elt F)) :
    after opsC V (Proc.devRef .tc main_arg0) = V (Proc.devRef .tc main_arg0)
    ∧ after opsC V (Proc.devRef .tc main_arg1) = V (Proc.devRef .tc main_arg1)
    ∧ after opsC V (Proc.devRef .tc main_arg2) = V (Proc.devRef .tc main_arg2)
    ∧ after opsC V (Proc.devRef .tc main_arg3) = V (Proc.devRef .tc main_arg3)
    ∧ after opsC V (Proc.devRef .tc main_arg4) = V (Proc.devRef .tc main_arg4)
    ∧ after opsC V (Proc.devRef .tc main_arg5) = V (Proc.devRef .tc main_arg5)
    ∧ after opsC V (Proc.devRef .tc main_arg6) = V (Proc.devRef .tc main_arg6)
    ∧ after opsC V (Proc.devRef .tc main_arg7) = V (Proc.devRef .tc main_arg7)
    ∧ after opsC V (Proc.devRef .tc main_arg8) = V (Proc.devRef .tc main_arg8)
    ∧ after opsC V (Proc.devRef .tc main_arg9) = V (Proc.devRef .tc main_arg9)
    ∧ after opsC V (Proc.devRef .tc main_arg10) = V (Proc.devRef .tc main_arg10)
    ∧ after opsC V (Proc.devRef .tc main_arg11) = V (Proc.devRef .tc main_arg11)
    ∧ after opsC V (Proc.devRef .tc main_arg12) = V (Proc.devRef .tc main_arg12)
    ∧ after opsC V (Proc.devRef .tc main_arg13) = V (Proc.devRef .tc main_arg13) := by
  refine ⟨?_, ?_, ?_, ?_, ?_, ?_, ?_, ?_, ?_, ?_, ?_, ?_, ?_, ?_⟩ <;> after_results_simp

/-- An argument buffer is written by none of the 52 operations. -/
theorem kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13) := by
  unfold ops
  simp only [after_append]
  obtain ⟨a0, a1, a2, a3, a4, a5, a6, a7, a8, a9, a10, a11, a12, a13⟩ := keptA V
  obtain ⟨b0, b1, b2, b3, b4, b5, b6, b7, b8, b9, b10, b11, b12, b13⟩ := keptB (after opsA V)
  obtain ⟨c0, c1, c2, c3, c4, c5, c6, c7, c8, c9, c10, c11, c12, c13⟩ := keptC (after opsB (after opsA V))
  exact ⟨c0.trans (b0.trans a0), c1.trans (b1.trans a1), c2.trans (b2.trans a2), c3.trans (b3.trans a3), c4.trans (b4.trans a4), c5.trans (b5.trans a5), c6.trans (b6.trans a6), c7.trans (b7.trans a7), c8.trans (b8.trans a8), c9.trans (b9.trans a9), c10.trans (b10.trans a10), c11.trans (b11.trans a11), c12.trans (b12.trans a12), c13.trans (b13.trans a13)⟩

/-- On every device, from any memory with zero counters: every weakly fair execution of @main terminates with the result
    buffer at `gruA` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = gruA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v46).trans (result_v46 _),
      (h c main_arg0).trans (kept (launchContents m c)).1,
      (h c main_arg1).trans (kept (launchContents m c)).2.1,
      (h c main_arg2).trans (kept (launchContents m c)).2.2.1,
      (h c main_arg3).trans (kept (launchContents m c)).2.2.2.1,
      (h c main_arg4).trans (kept (launchContents m c)).2.2.2.2.1,
      (h c main_arg5).trans (kept (launchContents m c)).2.2.2.2.2.1,
      (h c main_arg6).trans (kept (launchContents m c)).2.2.2.2.2.2.1,
      (h c main_arg7).trans (kept (launchContents m c)).2.2.2.2.2.2.2.1,
      (h c main_arg8).trans (kept (launchContents m c)).2.2.2.2.2.2.2.2.1,
      (h c main_arg9).trans (kept (launchContents m c)).2.2.2.2.2.2.2.2.2.1,
      (h c main_arg10).trans (kept (launchContents m c)).2.2.2.2.2.2.2.2.2.2.1,
      (h c main_arg11).trans (kept (launchContents m c)).2.2.2.2.2.2.2.2.2.2.2.1,
      (h c main_arg12).trans (kept (launchContents m c)).2.2.2.2.2.2.2.2.2.2.2.2.1,
      (h c main_arg13).trans (kept (launchContents m c)).2.2.2.2.2.2.2.2.2.2.2.2.2⟩)
    (run_seq scopedRefs_eq scopedSems_eq defs main (fun _ => ops) main_eq (fun _ => ops_sub) m ρ)

end Cert.ReferenceIdeal.HandRun

end
-- ==== Proof.RefRow.lean ====
/-
  The reference's whole-array stages (`HandRun.gruA` and its parts) read at one index `(r, j)`, at the ideal instance:
  row `r` of the result depends only on row `r` of the hidden state and of the input, and is the three-gate GRU row
  `Gru.gruRef` of those rows and the weight arrays.

  The only step that is more than reading an operation at an index is the product of the JOINED rows `[y | x]` with a
  384-row matrix: the sum over the 384 joined positions splits at the joint into the 128 positions that read `y` and the
  256 that read `x` (`Gru.sum_split_384`), which is how `Gru.pre` is written.
-/
import proofs.«150013_j72181220377171_2_alg».proof.Proof.RefRun
import proofs.«150013_j72181220377171_2_alg».proof.Proof.GruRow
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefRow

open Cert.ReferenceIdeal Cert.ReferenceIdeal.Gen Cert.ReferenceIdeal.HandRun Idealize.ShloMosaic Idealize.ShloMosaic.ValueIdx
open scoped BigOperators

/-! ## The two matrix products at an index -/

theorem dot384_lhs0 (i : (⟨2, ![262144, 128]⟩ : Shape).Idx) (q : dot_S262144x384_S384x128_S262144x128_1_0_0_1_n_n.contr.Idx) : (dot_S262144x384_S384x128_S262144x128_1_0_0_1_n_n.lhsIdx i q 0).val = (i 0).val := by
  unfold DotDims.lhsIdx
  rw [dif_neg (show ¬(0 : Fin S262144x384.rank) ∈ dot_S262144x384_S384x128_S262144x128_1_0_0_1_n_n.lhsBatch by decide), dif_pos (show (0 : Fin S262144x384.rank) ∈ dot_S262144x384_S384x128_S262144x128_1_0_0_1_n_n.lhsNonContracting by decide)]
  rfl
theorem dot384_rhs1 (i : (⟨2, ![262144, 128]⟩ : Shape).Idx) (q : dot_S262144x384_S384x128_S262144x128_1_0_0_1_n_n.contr.Idx) : (dot_S262144x384_S384x128_S262144x128_1_0_0_1_n_n.rhsIdx i q 1).val = (i 1).val := by
  unfold DotDims.rhsIdx
  rw [dif_neg (show ¬(1 : Fin S384x128.rank) ∈ dot_S262144x384_S384x128_S262144x128_1_0_0_1_n_n.rhsBatch by decide), dif_pos (show (1 : Fin S384x128.rank) ∈ dot_S262144x384_S384x128_S262144x128_1_0_0_1_n_n.rhsNonContracting by decide)]
  rfl
/-- A [262144, 384] × [384, 128] product read at row `r`, column `c`: the sum over the 384 contracted positions. -/
theorem dot384 (L : FVec Ideal (⟨2, ![262144, 384]⟩ : Shape) .f32) (R : FVec Ideal (⟨2, ![384, 128]⟩ : Shape) .f32) (r : Fin 262144) (c : Fin 128) :
    Host.dotGeneral (F := Ideal) dot_S262144x384_S384x128_S262144x128_1_0_0_1_n_n none L R (ix2 r c) = ∑ k : Fin 384, L (ix2 r k) * R (ix2 k c) := by
  simp only [Host.dotGeneral]
  rw [Ideal.dotGeneral_apply, ← Equiv.sum_comp (contrEquiv1 dot_S262144x384_S384x128_S262144x128_1_0_0_1_n_n 384 rfl rfl).symm]
  refine Finset.sum_congr rfl fun k _ => ?_
  have hk := contrEquiv1_symm_val dot_S262144x384_S384x128_S262144x128_1_0_0_1_n_n 384 rfl rfl k
  have el : dot_S262144x384_S384x128_S262144x128_1_0_0_1_n_n.lhsIdx (ix2 r c) ((contrEquiv1 dot_S262144x384_S384x128_S262144x128_1_0_0_1_n_n 384 rfl rfl).symm k) = ix2 r k := funext fun a => Fin.ext (by
    match a with
    | ⟨0, _⟩ => exact dot384_lhs0 _ _
    | ⟨1, _⟩ => exact (dot_S262144x384_S384x128_S262144x128_1_0_0_1_n_n.lhsIdx_val_of_single rfl _ _).trans hk)
  have er : dot_S262144x384_S384x128_S262144x128_1_0_0_1_n_n.rhsIdx (ix2 r c) ((contrEquiv1 dot_S262144x384_S384x128_S262144x128_1_0_0_1_n_n 384 rfl rfl).symm k) = ix2 k c := funext fun a => Fin.ext (by
    match a with
    | ⟨0, _⟩ => exact (dot_S262144x384_S384x128_S262144x128_1_0_0_1_n_n.rhsIdx_val_of_single rfl _ _).trans hk
    | ⟨1, _⟩ => exact dot384_rhs1 _ _)
  rw [el, er]

theorem dot128_lhs0 (i : (⟨2, ![262144, 128]⟩ : Shape).Idx) (q : dot_S262144x128_S128x128_S262144x128_1_0_0_1_n_n.contr.Idx) : (dot_S262144x128_S128x128_S262144x128_1_0_0_1_n_n.lhsIdx i q 0).val = (i 0).val := by
  unfold DotDims.lhsIdx
  rw [dif_neg (show ¬(0 : Fin S262144x128.rank) ∈ dot_S262144x128_S128x128_S262144x128_1_0_0_1_n_n.lhsBatch by decide), dif_pos (show (0 : Fin S262144x128.rank) ∈ dot_S262144x128_S128x128_S262144x128_1_0_0_1_n_n.lhsNonContracting by decide)]
  rfl
theorem dot128_rhs1 (i : (⟨2, ![262144, 128]⟩ : Shape).Idx) (q : dot_S262144x128_S128x128_S262144x128_1_0_0_1_n_n.contr.Idx) : (dot_S262144x128_S128x128_S262144x128_1_0_0_1_n_n.rhsIdx i q 1).val = (i 1).val := by
  unfold DotDims.rhsIdx
  rw [dif_neg (show ¬(1 : Fin S128x128.rank) ∈ dot_S262144x128_S128x128_S262144x128_1_0_0_1_n_n.rhsBatch by decide), dif_pos (show (1 : Fin S128x128.rank) ∈ dot_S262144x128_S128x128_S262144x128_1_0_0_1_n_n.rhsNonContracting by decide)]
  rfl
/-- A [262144, 128] × [128, 128] product read at row `r`, column `c`: the sum over the 128 contracted positions. -/
theorem dot128 (L : FVec Ideal (⟨2, ![262144, 128]⟩ : Shape) .f32) (R : FVec Ideal (⟨2, ![128, 128]⟩ : Shape) .f32) (r : Fin 262144) (c : Fin 128) :
    Host.dotGeneral (F := Ideal) dot_S262144x128_S128x128_S262144x128_1_0_0_1_n_n none L R (ix2 r c) = ∑ k : Fin 128, L (ix2 r k) * R (ix2 k c) := by
  simp only [Host.dotGeneral]
  rw [Ideal.dotGeneral_apply, ← Equiv.sum_comp (contrEquiv1 dot_S262144x128_S128x128_S262144x128_1_0_0_1_n_n 128 rfl rfl).symm]
  refine Finset.sum_congr rfl fun k _ => ?_
  have hk := contrEquiv1_symm_val dot_S262144x128_S128x128_S262144x128_1_0_0_1_n_n 128 rfl rfl k
  have el : dot_S262144x128_S128x128_S262144x128_1_0_0_1_n_n.lhsIdx (ix2 r c) ((contrEquiv1 dot_S262144x128_S128x128_S262144x128_1_0_0_1_n_n 128 rfl rfl).symm k) = ix2 r k := funext fun a => Fin.ext (by
    match a with
    | ⟨0, _⟩ => exact dot128_lhs0 _ _
    | ⟨1, _⟩ => exact (dot_S262144x128_S128x128_S262144x128_1_0_0_1_n_n.lhsIdx_val_of_single rfl _ _).trans hk)
  have er : dot_S262144x128_S128x128_S262144x128_1_0_0_1_n_n.rhsIdx (ix2 r c) ((contrEquiv1 dot_S262144x128_S128x128_S262144x128_1_0_0_1_n_n 128 rfl rfl).symm k) = ix2 k c := funext fun a => Fin.ext (by
    match a with
    | ⟨0, _⟩ => exact (dot_S262144x128_S128x128_S262144x128_1_0_0_1_n_n.rhsIdx_val_of_single rfl _ _).trans hk
    | ⟨1, _⟩ => exact dot128_rhs1 _ _)
  rw [el, er]

/-! ## The joined rows -/

/-- Position `q` of the first 128 of a joined row reads the left array. -/
theorem cat_left (y : (⟨S262144x128, .f32⟩ : BufTy).Contents (Elt Ideal)) (x : (⟨S262144x256, .f32⟩ : BufTy).Contents (Elt Ideal)) (r : Fin 262144) (q : Fin 128) :
    concatenate S262144x384 1 [⟨S262144x128, y⟩, ⟨S262144x256, x⟩] concatenates_S262144x128_S262144x256_S262144x384_d1 (ix2 r (Cert.Gru.rowH q)) = y (ix2 r q) :=
  concatenate_pair_apply_left (t := S262144x384) (s₁ := S262144x128) (s₂ := S262144x256) 1 y x concatenates_S262144x128_S262144x256_S262144x384_d1 (ix2 r (Cert.Gru.rowH q)) rfl (ix2 r q)
    (fun b => match b with | ⟨0, _⟩ => rfl | ⟨1, _⟩ => rfl)

/-- Position `128 + q` of a joined row reads the right array at `q`. -/
theorem cat_right (y : (⟨S262144x128, .f32⟩ : BufTy).Contents (Elt Ideal)) (x : (⟨S262144x256, .f32⟩ : BufTy).Contents (Elt Ideal)) (r : Fin 262144) (q : Fin 256) :
    concatenate S262144x384 1 [⟨S262144x128, y⟩, ⟨S262144x256, x⟩] concatenates_S262144x128_S262144x256_S262144x384_d1 (ix2 r (Cert.Gru.rowX q)) = x (ix2 r q) :=
  concatenate_pair_apply_right (t := S262144x384) (s₁ := S262144x128) (s₂ := S262144x256) 1 y x concatenates_S262144x128_S262144x256_S262144x384_d1 (ix2 r (Cert.Gru.rowX q)) rfl rfl (ix2 r q)
    (fun b hb => match b with | ⟨0, _⟩ => rfl | ⟨1, _⟩ => absurd rfl hb)
    (show q.val + 128 = 128 + q.val by omega)

/-- The joined rows times a 384-row matrix, at `(r, k)`: the 128 terms of `y` plus the 256 terms of `x`. -/
theorem joined_apply (y : (⟨S262144x128, .f32⟩ : BufTy).Contents (Elt Ideal)) (x : (⟨S262144x256, .f32⟩ : BufTy).Contents (Elt Ideal)) (W : (⟨S384x128, .f32⟩ : BufTy).Contents (Elt Ideal)) (r : Fin 262144) (k : Fin 128) :
    joined (F := Ideal) y x W (ix2 r k)
      = (∑ q : Fin 128, y (ix2 r q) * W (ix2 (Cert.Gru.rowH q) k)) + ∑ q : Fin 256, x (ix2 r q) * W (ix2 (Cert.Gru.rowX q) k) := by
  unfold joined
  rw [dot384, Cert.Gru.sum_split_384]
  refine congrArg₂ (· + ·) (Finset.sum_congr rfl fun q _ => ?_) (Finset.sum_congr rfl fun q _ => ?_)
  · rw [cat_left]
  · rw [cat_right]

/-! ## Biases and the constant one -/

/-- A bias laid along the rows reads, at `(r, k)`, the vector's entry `k`. -/
theorem bias_apply (b : (⟨S128, .f32⟩ : BufTy).Contents (Elt Ideal)) (r : Fin 262144) (k : Fin 128) : bias (F := Ideal) b (ix2 r k) = b (ix1 k) := by
  unfold bias
  rw [broadcastInDim_apply _ bcast_S1x128_S262144x128_0_1 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])]
  exact broadcastInDim_apply _ bcast_S128_S1x128_1 b (ix2 (0 : Fin 1) k) (ix1 k) (fun a => match a with
    | ⟨0, _⟩ => by show k.val = if (128 : Nat) = 1 then 0 else k.val; rw [if_neg (by decide)])

/-- The splat of the pattern `0x3F800000` is the extended real one at every index. -/
theorem ones_apply (i : S262144x128.Idx) : ones (F := Ideal) i = 1 := by
  unfold ones
  rw [broadcastInDim_apply _ bcast_S_S262144x128 _ i ix0 (fun a => a.elim0)]
  exact Ideal.ofBits_one_f32

/-! ## A gate, the logistic quotient, the whole row -/

/-- A gate at `(r, j)` is `Gru.mlp` of rows `r` of its two inputs. -/
theorem gate_apply (y : (⟨S262144x128, .f32⟩ : BufTy).Contents (Elt Ideal)) (x : (⟨S262144x256, .f32⟩ : BufTy).Contents (Elt Ideal)) (W1 : (⟨S384x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) (r : Fin 262144) (j : Fin 128) :
    gate (F := Ideal) y x W1 b1 W2 b2 (ix2 r j)
      = Cert.Gru.mlp (fun q => y (ix2 r q)) (fun q => x (ix2 r q)) (fun q k => W1 (ix2 q k)) (fun k => b1 (ix1 k)) (fun q k => W2 (ix2 q k)) (fun k => b2 (ix1 k)) j := by
  unfold gate Cert.Gru.mlp
  rw [addf_apply, dot128, bias_apply]
  refine congrArg (· + b2 (ix1 j)) (Finset.sum_congr rfl fun k _ => congrArg (· * W2 (ix2 k j)) ?_)
  show Ideal.tanh ((addf (F := Ideal) (φ := .f32) (joined (F := Ideal) y x W1) (bias (F := Ideal) b1)) (ix2 r k)) = _
  rw [addf_apply, joined_apply, bias_apply]
  rfl

/-- The reference's logistic quotient at an index. -/
theorem sigA_apply (z : (⟨S262144x128, .f32⟩ : BufTy).Contents (Elt Ideal)) (i : S262144x128.Idx) : sigA (F := Ideal) z i = Cert.Gru.sig (z i) := by
  show Ideal.div (ones (F := Ideal) i) (ones (F := Ideal) i + Ideal.exp (-(z i))) = _
  rw [ones_apply]
  rfl

/-- THE REFERENCE AT AN INDEX: entry `(r, j)` of its result is the three-gate GRU row of rows `r` of the hidden state and
    the input. -/
theorem gruA_apply (x : (⟨S262144x256, .f32⟩ : BufTy).Contents (Elt Ideal)) (h : (⟨S262144x128, .f32⟩ : BufTy).Contents (Elt Ideal)) (Wu1 : (⟨S384x128, .f32⟩ : BufTy).Contents (Elt Ideal)) (bu1 : (⟨S128, .f32⟩ : BufTy).Contents (Elt Ideal)) (Wu2 : (⟨S128x128, .f32⟩ : BufTy).Contents (Elt Ideal)) (bu2 : (⟨S128, .f32⟩ : BufTy).Contents (Elt Ideal))
    (Wr1 : (⟨S384x128, .f32⟩ : BufTy).Contents (Elt Ideal)) (br1 : (⟨S128, .f32⟩ : BufTy).Contents (Elt Ideal)) (Wr2 : (⟨S128x128, .f32⟩ : BufTy).Contents (Elt Ideal)) (br2 : (⟨S128, .f32⟩ : BufTy).Contents (Elt Ideal)) (Wn1 : (⟨S384x128, .f32⟩ : BufTy).Contents (Elt Ideal)) (bn1 : (⟨S128, .f32⟩ : BufTy).Contents (Elt Ideal)) (Wn2 : (⟨S128x128, .f32⟩ : BufTy).Contents (Elt Ideal)) (bn2 : (⟨S128, .f32⟩ : BufTy).Contents (Elt Ideal))
    (r : Fin 262144) (j : Fin 128) :
    gruA (F := Ideal) x h Wu1 bu1 Wu2 bu2 Wr1 br1 Wr2 br2 Wn1 bn1 Wn2 bn2 (ix2 r j)
      = Cert.Gru.gruRef (fun q => h (ix2 r q)) (fun q => x (ix2 r q)) (fun q k => Wu1 (ix2 q k)) (fun k => bu1 (ix1 k)) (fun q k => Wu2 (ix2 q k)) (fun k => bu2 (ix1 k))
          (fun q k => Wr1 (ix2 q k)) (fun k => br1 (ix1 k)) (fun q k => Wr2 (ix2 q k)) (fun k => br2 (ix1 k)) (fun q k => Wn1 (ix2 q k)) (fun k => bn1 (ix1 k)) (fun q k => Wn2 (ix2 q k)) (fun k => bn2 (ix1 k)) j := by
  unfold gruA Cert.Gru.gruRef Cert.Gru.blend
  rw [addf_apply, mulf_apply, mulf_apply, subf_apply, ones_apply, sigA_apply, gate_apply, gate_apply]
  have hr : (fun q : Fin 128 => (mulf (F := Ideal) (φ := .f32) h (sigA (F := Ideal) (gate (F := Ideal) h x Wr1 br1 Wr2 br2))) (ix2 r q))
      = fun q => h (ix2 r q) * Cert.Gru.sig (Cert.Gru.mlp (fun q => h (ix2 r q)) (fun q => x (ix2 r q)) (fun q k => Wr1 (ix2 q k)) (fun k => br1 (ix1 k)) (fun q k => Wr2 (ix2 q k)) (fun k => br2 (ix1 k)) q) :=
    funext fun q => by rw [mulf_apply, sigA_apply, gate_apply]
  rw [hr]

end Cert.ReferenceIdeal.RefRow

end
-- ==== Proof.KerRow.lean ====
/-
  The kernel body's arithmetic read at one index. The body loads the twelve blocks whole, so its one store's value is a
  pure function of them (the generated payloads `k0_pay1`, `k0_pay3`, `k0_pay4`, `k0_pay5`). Here that function is restated
  in stages — fused first layer, fused second layer, the logistic, the candidate's two layers, the blend — and each stage
  is read at `(p, j)`: a `tpu.matmul` into a zero accumulator is the plain sum over the contracted axis, a change of float
  format is the identity, a bias row is read at its column, the two 128-lane slices of the fused gate are its columns
  `j` and `128 + j`. Entry `(p, j)` of the stored block depends only on row `p` of the two row blocks and is
  `Gru.gruFused` of those rows and the resident weight blocks.
-/
import proofs.«150013_j72181220377171_2_alg».proof.Proof.Gen.KernelIdeal.Skeleton
import proofs.«150013_j72181220377171_2_alg».proof.Proof.GruRow
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.KerRow

open Cert.KernelIdeal Cert.KernelIdeal.Gen Idealize.ShloMosaic Idealize.ShloMosaic.ValueIdx
open scoped BigOperators

/-! ## The four matrix products at an index -/

theorem mmA_lhs0 (i : (⟨2, ![4096, 256]⟩ : Shape).Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem mmA_rhs1 (i : (⟨2, ![4096, 256]⟩ : Shape).Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl
/-- A [4096, 128] × [128, 256] product read at row `r`, column `c`: the sum over the 128 contracted positions. -/
theorem mmA (L : FVec Ideal (⟨2, ![4096, 128]⟩ : Shape) .bf16) (R : FVec Ideal (⟨2, ![128, 256]⟩ : Shape) .bf16) (r : Fin 4096) (c : Fin 256) :
    matmul (F := Ideal) dot_S4096x128_S128x256_S4096x256_1_0_0_1_n_n none L R (constant (F := Ideal) S4096x256 .f32 0x00000000#32) (ix2 r c) = ∑ k : Fin 128, L (ix2 r k) * R (ix2 k c) := by
  refine (Ideal.matmul_constant_zero_apply dot_S4096x128_S128x256_S4096x256_1_0_0_1_n_n none L R (ix2 r c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r c) ((contrEquiv1 dot_S4096x128_S128x256_S4096x256_1_0_0_1_n_n 128 rfl rfl).symm k) = ix2 r k := funext fun a => Fin.ext (by
    match a with
    | ⟨0, _⟩ => exact mmA_lhs0 _ _
    | ⟨1, _⟩ => exact (dot_S4096x128_S128x256_S4096x256_1_0_0_1_n_n.lhsIdx_val_of_single rfl _ _).trans hk)
  have er : dot_S4096x128_S128x256_S4096x256_1_0_0_1_n_n.rhsIdx (ix2 r c) ((contrEquiv1 dot_S4096x128_S128x256_S4096x256_1_0_0_1_n_n 128 rfl rfl).symm k) = ix2 k c := funext fun a => Fin.ext (by
    match a with
    | ⟨0, _⟩ => exact (dot_S4096x128_S128x256_S4096x256_1_0_0_1_n_n.rhsIdx_val_of_single rfl _ _).trans hk
    | ⟨1, _⟩ => exact mmA_rhs1 _ _)
  rw [el, er]

theorem mmB_lhs0 (i : (⟨2, ![4096, 256]⟩ : Shape).Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mmB_rhs1 (i : (⟨2, ![4096, 256]⟩ : Shape).Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- A [4096, 256] × [256, 256] product read at row `r`, column `c`: the sum over the 256 contracted positions. -/
theorem mmB (L : FVec Ideal (⟨2, ![4096, 256]⟩ : Shape) .bf16) (R : FVec Ideal (⟨2, ![256, 256]⟩ : Shape) .bf16) (r : Fin 4096) (c : Fin 256) :
    matmul (F := Ideal) dot_S4096x256_S256x256_S4096x256_1_0_0_1_n_n none L R (constant (F := Ideal) S4096x256 .f32 0x00000000#32) (ix2 r c) = ∑ k : Fin 256, L (ix2 r k) * R (ix2 k c) := by
  refine (Ideal.matmul_constant_zero_apply dot_S4096x256_S256x256_S4096x256_1_0_0_1_n_n none L R (ix2 r c)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun a => Fin.ext (by
    match a with
    | ⟨0, _⟩ => exact mmB_lhs0 _ _
    | ⟨1, _⟩ => exact (dot_S4096x256_S256x256_S4096x256_1_0_0_1_n_n.lhsIdx_val_of_single rfl _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun a => Fin.ext (by
    match a with
    | ⟨0, _⟩ => exact (dot_S4096x256_S256x256_S4096x256_1_0_0_1_n_n.rhsIdx_val_of_single rfl _ _).trans hk
    | ⟨1, _⟩ => exact mmB_rhs1 _ _)
  rw [el, er]

theorem mmC_lhs0 (i : (⟨2, ![4096, 128]⟩ : Shape).Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem mmC_rhs1 (i : (⟨2, ![4096, 128]⟩ : Shape).Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl
/-- A [4096, 128] × [128, 128] product read at row `r`, column `c`: the sum over the 128 contracted positions. -/
theorem mmC (L : FVec Ideal (⟨2, ![4096, 128]⟩ : Shape) .bf16) (R : FVec Ideal (⟨2, ![128, 128]⟩ : Shape) .bf16) (r : Fin 4096) (c : Fin 128) :
    matmul (F := Ideal) dot_S4096x128_S128x128_S4096x128_1_0_0_1_n_n none L R (constant (F := Ideal) S4096x128 .f32 0x00000000#32) (ix2 r c) = ∑ k : Fin 128, L (ix2 r k) * R (ix2 k c) := by
  refine (Ideal.matmul_constant_zero_apply dot_S4096x128_S128x128_S4096x128_1_0_0_1_n_n none L R (ix2 r c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r c) ((contrEquiv1 dot_S4096x128_S128x128_S4096x128_1_0_0_1_n_n 128 rfl rfl).symm k) = ix2 r k := funext fun a => Fin.ext (by
    match a with
    | ⟨0, _⟩ => exact mmC_lhs0 _ _
    | ⟨1, _⟩ => exact (dot_S4096x128_S128x128_S4096x128_1_0_0_1_n_n.lhsIdx_val_of_single rfl _ _).trans hk)
  have er : dot_S4096x128_S128x128_S4096x128_1_0_0_1_n_n.rhsIdx (ix2 r c) ((contrEquiv1 dot_S4096x128_S128x128_S4096x128_1_0_0_1_n_n 128 rfl rfl).symm k) = ix2 k c := funext fun a => Fin.ext (by
    match a with
    | ⟨0, _⟩ => exact (dot_S4096x128_S128x128_S4096x128_1_0_0_1_n_n.rhsIdx_val_of_single rfl _ _).trans hk
    | ⟨1, _⟩ => exact mmC_rhs1 _ _)
  rw [el, er]

theorem mmD_lhs0 (i : (⟨2, ![4096, 128]⟩ : Shape).Idx) (q : dot_S4096x256_S256x128_S4096x128_1_0_0_1_n_n.contr.Idx) : (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem mmD_rhs1 (i : (⟨2, ![4096, 128]⟩ : Shape).Idx) (q : dot_S4096x256_S256x128_S4096x128_1_0_0_1_n_n.contr.Idx) : (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl
/-- A [4096, 256] × [256, 128] product read at row `r`, column `c`: the sum over the 256 contracted positions. -/
theorem mmD (L : FVec Ideal (⟨2, ![4096, 256]⟩ : Shape) .bf16) (R : FVec Ideal (⟨2, ![256, 128]⟩ : Shape) .bf16) (r : Fin 4096) (c : Fin 128) :
    matmul (F := Ideal) dot_S4096x256_S256x128_S4096x128_1_0_0_1_n_n none L R (constant (F := Ideal) S4096x128 .f32 0x00000000#32) (ix2 r c) = ∑ k : Fin 256, L (ix2 r k) * R (ix2 k c) := by
  refine (Ideal.matmul_constant_zero_apply dot_S4096x256_S256x128_S4096x128_1_0_0_1_n_n none L R (ix2 r c)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r c) ((contrEquiv1 dot_S4096x256_S256x128_S4096x128_1_0_0_1_n_n 256 rfl rfl).symm k) = ix2 r k := funext fun a => Fin.ext (by
    match a with
    | ⟨0, _⟩ => exact mmD_lhs0 _ _
    | ⟨1, _⟩ => exact (dot_S4096x256_S256x128_S4096x128_1_0_0_1_n_n.lhsIdx_val_of_single rfl _ _).trans hk)
  have er : dot_S4096x256_S256x128_S4096x128_1_0_0_1_n_n.rhsIdx (ix2 r c) ((contrEquiv1 dot_S4096x256_S256x128_S4096x128_1_0_0_1_n_n 256 rfl rfl).symm k) = ix2 k c := funext fun a => Fin.ext (by
    match a with
    | ⟨0, _⟩ => exact (dot_S4096x256_S256x128_S4096x128_1_0_0_1_n_n.rhsIdx_val_of_single rfl _ _).trans hk
    | ⟨1, _⟩ => exact mmD_rhs1 _ _)
  rw [el, er]

/-! ## A bias row laid over the block's rows -/

theorem bias256_at (v : FVec Ideal S256 .f32) (p : Fin 4096) (c : Fin 256) : (broadcastTo S4096x256 (shapeCast S1x256 (shapeCast S256 v shapeCasts_S256_S256) shapeCasts_S256_S1x256) broadcasts_S1x256_S4096x256) (ix2 p c) = v (ix1 c) := by
  rw [broadcastTo_1b_ab_apply, shapeCast_a_1a_apply, shapeCast_self]

theorem bias128_at (v : FVec Ideal S128 .f32) (p : Fin 4096) (c : Fin 128) : (broadcastTo S4096x128 (shapeCast S1x128 v shapeCasts_S128_S1x128) broadcasts_S1x128_S4096x128) (ix2 p c) = v (ix1 c) := by
  rw [broadcastTo_1b_ab_apply, shapeCast_a_1a_apply]

/-! ## The body's stages -/

section Stages

variable (v0 : FVec Ideal S4096x256 .f32) (v1 : FVec Ideal S4096x128 .f32) (v4 : FVec Ideal S128x256 .bf16) (v7 : FVec Ideal S256x256 .bf16)
  (v11 : FVec Ideal S256 .f32) (v18 : FVec Ideal S256x256 .bf16) (v21 : FVec Ideal S256 .f32) (v31 : FVec Ideal S128x128 .bf16)
  (v34 : FVec Ideal S256x128 .bf16) (v38 : FVec Ideal S128 .f32) (v44 : FVec Ideal S128x128 .bf16) (v47 : FVec Ideal S128 .f32)

/-- Fused first layer of the block: `h · A + x · B + b`. -/
def layer1 : FVec Ideal S4096x256 .f32 :=
  addf (addf (matmul dot_S4096x128_S128x256_S4096x256_1_0_0_1_n_n none (truncf .bf16 v1 bitsLt_bf16_f32) (shapeCast S128x256 v4 shapeCasts_S128x256_S128x256) (constant (F := Ideal) S4096x256 .f32 0x00000000#32))
      (matmul dot_S4096x256_S256x256_S4096x256_1_0_0_1_n_n none (truncf .bf16 v0 bitsLt_bf16_f32) (shapeCast S256x256 v7 shapeCasts_S256x256_S256x256) (constant (F := Ideal) S4096x256 .f32 0x00000000#32)))
    (broadcastTo S4096x256 (shapeCast S1x256 (shapeCast S256 v11 shapeCasts_S256_S256) shapeCasts_S256_S1x256) broadcasts_S1x256_S4096x256)

theorem layer1_at (p : Fin 4096) (c : Fin 256) :
    layer1 v0 v1 v4 v7 v11 (ix2 p c) = Cert.Gru.fused1 (fun q => v1 (ix2 p q)) (fun q => v0 (ix2 p q)) (fun q k => v4 (ix2 q k)) (fun q k => v7 (ix2 q k)) (fun k => v11 (ix1 k)) c := by
  unfold layer1 Cert.Gru.fused1
  rw [addf_apply, addf_apply, mmA, mmB, bias256_at, shapeCast_self, shapeCast_self]
  rfl

/-- Fused second layer over first-layer values `l`: `tanh l · C + d`. -/
def layer2 (l : FVec Ideal S4096x256 .f32) : FVec Ideal S4096x256 .f32 :=
  addf (matmul dot_S4096x256_S256x256_S4096x256_1_0_0_1_n_n none (truncf .bf16 (tanh l) bitsLt_bf16_f32) (shapeCast S256x256 v18 shapeCasts_S256x256_S256x256) (constant (F := Ideal) S4096x256 .f32 0x00000000#32))
    (broadcastTo S4096x256 (shapeCast S1x256 (shapeCast S256 v21 shapeCasts_S256_S256) shapeCasts_S256_S1x256) broadcasts_S1x256_S4096x256)

theorem layer2_at (l : FVec Ideal S4096x256 .f32) (p : Fin 4096) (c : Fin 256) :
    layer2 v18 v21 l (ix2 p c) = Cert.Gru.fused2 (fun k => l (ix2 p k)) (fun q k => v18 (ix2 q k)) (fun k => v21 (ix1 k)) c := by
  unfold layer2 Cert.Gru.fused2
  rw [addf_apply, mmB, bias256_at, shapeCast_self]
  rfl

/-- The squashed fused gate is the logistic of the second layer of the first. -/
theorem pay3_eq : k0_pay3 (F := Ideal) v0 v1 v4 v7 v11 v18 v21 = logistic (layer2 v18 v21 (layer1 v0 v1 v4 v7 v11)) := rfl

theorem pay3_at (p : Fin 4096) (c : Fin 256) :
    k0_pay3 (F := Ideal) v0 v1 v4 v7 v11 v18 v21 (ix2 p c) = Cert.Gru.fusedGate (fun q => v1 (ix2 p q)) (fun q => v0 (ix2 p q)) (fun q k => v4 (ix2 q k)) (fun q k => v7 (ix2 q k)) (fun k => v11 (ix1 k)) (fun q k => v18 (ix2 q k)) (fun k => v21 (ix1 k)) c := by
  rw [pay3_eq]
  show Ideal.logistic (layer2 v18 v21 (layer1 v0 v1 v4 v7 v11) (ix2 p c)) = _
  rw [layer2_at]
  have e : (fun k => layer1 v0 v1 v4 v7 v11 (ix2 p k)) = Cert.Gru.fused1 (fun q => v1 (ix2 p q)) (fun q => v0 (ix2 p q)) (fun q k => v4 (ix2 q k)) (fun q k => v7 (ix2 q k)) (fun k => v11 (ix1 k)) :=
    funext fun k => layer1_at v0 v1 v4 v7 v11 p k
  rw [e]
  rfl

/-- The update gate is the first 128 lanes of the squashed fused gate. -/
theorem pay4_at (p : Fin 4096) (j : Fin 128) :
    k0_pay4 (F := Ideal) v0 v1 v4 v7 v11 v18 v21 (ix2 p j) = k0_pay3 (F := Ideal) v0 v1 v4 v7 v11 v18 v21 (ix2 p (Cert.Gru.lo j)) := by
  unfold k0_pay4
  exact slice2_axis1_apply 0 _ slices_S4096x256_o0_0_S4096x128 p j (Cert.Gru.lo j) (by show j.val = 0 + j.val; omega)

/-- First layer of the candidate gate over the squashed fused gate `g`, without its bias: `(h ⊙ g[:, 128:]) · P + x · Q`. -/
def candPre (g : FVec Ideal S4096x256 .f32) : FVec Ideal S4096x128 .f32 :=
  addf (matmul dot_S4096x128_S128x128_S4096x128_1_0_0_1_n_n none (truncf .bf16 (mulf v1 (extractStridedSlice S4096x128 ![0, 128] g slices_S4096x256_o0_128_S4096x128)) bitsLt_bf16_f32)
      (shapeCast S128x128 v31 shapeCasts_S128x128_S128x128) (constant (F := Ideal) S4096x128 .f32 0x00000000#32))
    (matmul dot_S4096x256_S256x128_S4096x128_1_0_0_1_n_n none (truncf .bf16 v0 bitsLt_bf16_f32) (shapeCast S256x128 v34 shapeCasts_S256x128_S256x128) (constant (F := Ideal) S4096x128 .f32 0x00000000#32))

theorem candPre_at (g : FVec Ideal S4096x256 .f32) (p : Fin 4096) (k : Fin 128) :
    candPre v0 v1 v31 v34 g (ix2 p k)
      = (∑ q : Fin 128, (v1 (ix2 p q) * g (ix2 p (Cert.Gru.hi q))) * v31 (ix2 q k)) + ∑ q : Fin 256, v0 (ix2 p q) * v34 (ix2 q k) := by
  unfold candPre
  rw [addf_apply, mmC, mmD, shapeCast_self, shapeCast_self]
  refine congrArg₂ (· + ·) (Finset.sum_congr rfl fun q _ => congrArg (· * v31 (ix2 q k)) ?_) rfl
  show v1 (ix2 p q) * extractStridedSlice S4096x128 ![0, 128] g slices_S4096x256_o0_128_S4096x128 (ix2 p q) = _
  rw [slice2_axis1_apply 128 g slices_S4096x256_o0_128_S4096x128 p q (Cert.Gru.hi q) rfl]

theorem pay5_eq : k0_pay5 (F := Ideal) v0 v1 v4 v7 v11 v18 v21 v31 v34 = candPre v0 v1 v31 v34 (k0_pay3 (F := Ideal) v0 v1 v4 v7 v11 v18 v21) := rfl

/-- Second layer of the candidate gate over first-layer values `l` (bias not yet added to `l`): `tanh (l + e) · R + f`. -/
def candOut (l : FVec Ideal S4096x128 .f32) : FVec Ideal S4096x128 .f32 :=
  addf (matmul dot_S4096x128_S128x128_S4096x128_1_0_0_1_n_n none (truncf .bf16 (tanh (addf l (broadcastTo S4096x128 (shapeCast S1x128 v38 shapeCasts_S128_S1x128) broadcasts_S1x128_S4096x128))) bitsLt_bf16_f32) (shapeCast S128x128 v44 shapeCasts_S128x128_S128x128) (constant (F := Ideal) S4096x128 .f32 0x00000000#32))
    (broadcastTo S4096x128 (shapeCast S1x128 v47 shapeCasts_S128_S1x128) broadcasts_S1x128_S4096x128)

theorem candOut_at (l : FVec Ideal S4096x128 .f32) (p : Fin 4096) (j : Fin 128) :
    candOut v38 v44 v47 l (ix2 p j) = Cert.Gru.cand2 (fun k => l (ix2 p k) + v38 (ix1 k)) (fun q k => v44 (ix2 q k)) (fun k => v47 (ix1 k)) j := by
  unfold candOut Cert.Gru.cand2
  rw [addf_apply, mmC, bias128_at, shapeCast_self]
  refine congrArg (· + v47 (ix1 j)) (Finset.sum_congr rfl fun k _ => congrArg (· * v44 (ix2 k j)) ?_)
  show Ideal.tanh ((addf (F := Ideal) (φ := .f32) l (broadcastTo S4096x128 (shapeCast S1x128 v38 shapeCasts_S128_S1x128) broadcasts_S1x128_S4096x128)) (ix2 p k)) = _
  rw [addf_apply, bias128_at]

/-- The stored value is the blend of the candidate and the old state under the update gate. -/
theorem pay1_eq (v27 v37 : FVec Ideal S4096x128 .f32) : k0_pay1 (F := Ideal) v1 v27 v37 v38 v44 v47
    = addf (mulf (subf (broadcast S4096x128 (Scalar.ofBits (F := Ideal) .f32 0x3F800000#32)) v27) (candOut v38 v44 v47 v37)) (mulf v27 v1) := rfl

theorem pay1_at (v27 v37 : FVec Ideal S4096x128 .f32) (p : Fin 4096) (j : Fin 128) :
    k0_pay1 (F := Ideal) v1 v27 v37 v38 v44 v47 (ix2 p j)
      = Cert.Gru.blend (v27 (ix2 p j)) (Cert.Gru.cand2 (fun k => v37 (ix2 p k) + v38 (ix1 k)) (fun q k => v44 (ix2 q k)) (fun k => v47 (ix1 k)) j) (v1 (ix2 p j)) := by
  rw [pay1_eq, addf_apply, mulf_apply, mulf_apply, subf_apply, candOut_at, broadcast_apply]
  unfold Cert.Gru.blend
  show (Ideal.ofBits .f32 0x3F800000#32 - _) * _ + _ = _
  rw [Ideal.ofBits_one_f32]

/-- THE STORED BLOCK AT AN INDEX: entry `(p, j)` is the fused GRU row of rows `p` of the hidden-state and input blocks and the
    resident weight blocks. -/
theorem payload_at (p : Fin 4096) (j : Fin 128) :
    k0_pay1 (F := Ideal) v1 (k0_pay4 (F := Ideal) v0 v1 v4 v7 v11 v18 v21) (k0_pay5 (F := Ideal) v0 v1 v4 v7 v11 v18 v21 v31 v34) v38 v44 v47 (ix2 p j)
      = Cert.Gru.gruFused (fun q => v1 (ix2 p q)) (fun q => v0 (ix2 p q)) (fun q k => v4 (ix2 q k)) (fun q k => v7 (ix2 q k)) (fun k => v11 (ix1 k)) (fun q k => v18 (ix2 q k)) (fun k => v21 (ix1 k)) (fun q k => v31 (ix2 q k)) (fun q k => v34 (ix2 q k)) (fun k => v38 (ix1 k)) (fun q k => v44 (ix2 q k)) (fun k => v47 (ix1 k)) j := by
  rw [pay1_at, pay4_at, pay3_at]
  have hc : (fun k : Fin 128 => k0_pay5 (F := Ideal) v0 v1 v4 v7 v11 v18 v21 v31 v34 (ix2 p k) + v38 (ix1 k))
      = Cert.Gru.cand1 (fun q => v1 (ix2 p q) * Cert.Gru.fusedGate (fun q => v1 (ix2 p q)) (fun q => v0 (ix2 p q)) (fun q k => v4 (ix2 q k)) (fun q k => v7 (ix2 q k)) (fun k => v11 (ix1 k)) (fun q k => v18 (ix2 q k)) (fun k => v21 (ix1 k)) (Cert.Gru.hi q)) (fun q => v0 (ix2 p q)) (fun q k => v31 (ix2 q k)) (fun q k => v34 (ix2 q k)) (fun k => v38 (ix1 k)) :=
    funext fun k => by
      rw [pay5_eq, candPre_at]
      unfold Cert.Gru.cand1
      refine congrArg (· + v38 (ix1 k)) (congrArg₂ (· + ·) (Finset.sum_congr rfl fun q _ => ?_) rfl)
      rw [pay3_at]
  rw [hc]
  rfl

end Stages

end Cert.KernelIdeal.KerRow

end
-- ==== Proof.HostArrays.lean ====
/-
  What the region finds in the arrays its windows stage. Eight of the twelve input windows stage arrays that @main's
  host operations build from the weight arguments before the launch: the update and reset gates' first-layer matrices
  side by side and then cut at the joint of the joined input (`main_v2`, `main_v4`), their biases end to end (`main_v5`,
  `main_v11`), the block-diagonal second layer `[[Wu₂, 0], [0, Wr₂]]` (`main_v10`), and the candidate gate's matrices cut
  at the joint (`main_v13`, `main_v15`, `main_v16`). A change of float format is the identity at the ideal instance, so
  each of these arrays is read here, entry by entry, as an entry of an argument array or as the zero of a zero block.
  With those readings the fused row function of the staged arrays is the three-gate row function of the arguments
  (`Gru.gruFused_eq`): `fused_eq_ref`.
-/
import proofs.«150013_j72181220377171_2_alg».proof.Proof.Gen.KernelIdeal.Frame
import proofs.«150013_j72181220377171_2_alg».proof.Proof.GruRow
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

noncomputable section

namespace Cert.KernelIdeal.HostArrays

open Cert.KernelIdeal Cert.KernelIdeal.Gen Idealize.ShloMosaic Idealize.ShloMosaic.TcCoe Idealize.ShloMosaic.ValueIdx Idealize.ShloMosaic.StableHlo

/-! ## Two pieces joined along an axis, read on either side of the joint -/

theorem cols384_lo (y x : S384x128.Idx → EReal) (q : Fin 384) (k : Fin 128) :
    concatenate S384x256 1 [⟨S384x128, y⟩, ⟨S384x128, x⟩] concatenates_S384x128_S384x128_S384x256_d1 (ix2 q (Cert.Gru.lo k)) = y (ix2 q k) :=
  concatenate_pair_apply_left (t := S384x256) (s₁ := S384x128) (s₂ := S384x128) 1 y x concatenates_S384x128_S384x128_S384x256_d1 (ix2 q (Cert.Gru.lo k)) rfl (ix2 q k)
    (fun b => match b with | ⟨0, _⟩ => rfl | ⟨1, _⟩ => rfl)
theorem cols384_hi (y x : S384x128.Idx → EReal) (q : Fin 384) (k : Fin 128) :
    concatenate S384x256 1 [⟨S384x128, y⟩, ⟨S384x128, x⟩] concatenates_S384x128_S384x128_S384x256_d1 (ix2 q (Cert.Gru.hi k)) = x (ix2 q k) :=
  concatenate_pair_apply_right (t := S384x256) (s₁ := S384x128) (s₂ := S384x128) 1 y x concatenates_S384x128_S384x128_S384x256_d1 (ix2 q (Cert.Gru.hi k)) rfl rfl (ix2 q k)
    (fun b hb => match b with | ⟨0, _⟩ => rfl | ⟨1, _⟩ => absurd rfl hb)
    (show k.val + 128 = 128 + k.val by omega)

theorem cols128_lo (y x : S128x128.Idx → EReal) (q : Fin 128) (k : Fin 128) :
    concatenate S128x256 1 [⟨S128x128, y⟩, ⟨S128x128, x⟩] concatenates_S128x128_S128x128_S128x256_d1 (ix2 q (Cert.Gru.lo k)) = y (ix2 q k) :=
  concatenate_pair_apply_left (t := S128x256) (s₁ := S128x128) (s₂ := S128x128) 1 y x concatenates_S128x128_S128x128_S128x256_d1 (ix2 q (Cert.Gru.lo k)) rfl (ix2 q k)
    (fun b => match b with | ⟨0, _⟩ => rfl | ⟨1, _⟩ => rfl)
theorem cols128_hi (y x : S128x128.Idx → EReal) (q : Fin 128) (k : Fin 128) :
    concatenate S128x256 1 [⟨S128x128, y⟩, ⟨S128x128, x⟩] concatenates_S128x128_S128x128_S128x256_d1 (ix2 q (Cert.Gru.hi k)) = x (ix2 q k) :=
  concatenate_pair_apply_right (t := S128x256) (s₁ := S128x128) (s₂ := S128x128) 1 y x concatenates_S128x128_S128x128_S128x256_d1 (ix2 q (Cert.Gru.hi k)) rfl rfl (ix2 q k)
    (fun b hb => match b with | ⟨0, _⟩ => rfl | ⟨1, _⟩ => absurd rfl hb)
    (show k.val + 128 = 128 + k.val by omega)

theorem rows256_lo (y x : S128x256.Idx → EReal) (q : Fin 128) (k : Fin 256) :
    concatenate S256x256 0 [⟨S128x256, y⟩, ⟨S128x256, x⟩] concatenates_S128x256_S128x256_S256x256_d0 (ix2 (Cert.Gru.lo q) k) = y (ix2 q k) :=
  concatenate_pair_apply_left (t := S256x256) (s₁ := S128x256) (s₂ := S128x256) 0 y x concatenates_S128x256_S128x256_S256x256_d0 (ix2 (Cert.Gru.lo q) k) rfl (ix2 q k)
    (fun b => match b with | ⟨0, _⟩ => rfl | ⟨1, _⟩ => rfl)
theorem rows256_hi (y x : S128x256.Idx → EReal) (q : Fin 128) (k : Fin 256) :
    concatenate S256x256 0 [⟨S128x256, y⟩, ⟨S128x256, x⟩] concatenates_S128x256_S128x256_S256x256_d0 (ix2 (Cert.Gru.hi q) k) = x (ix2 q k) :=
  concatenate_pair_apply_right (t := S256x256) (s₁ := S128x256) (s₂ := S128x256) 0 y x concatenates_S128x256_S128x256_S256x256_d0 (ix2 (Cert.Gru.hi q) k) rfl rfl (ix2 q k)
    (fun b hb => match b with | ⟨0, _⟩ => absurd rfl hb | ⟨1, _⟩ => rfl)
    (show q.val + 128 = 128 + q.val by omega)

theorem vec256_lo (y x : S128.Idx → EReal) (k : Fin 128) :
    concatenate S256 0 [⟨S128, y⟩, ⟨S128, x⟩] concatenates_S128_S128_S256_d0 (ix1 (Cert.Gru.lo k)) = y (ix1 k) :=
  concatenate_pair_apply_left (t := S256) (s₁ := S128) (s₂ := S128) 0 y x concatenates_S128_S128_S256_d0 (ix1 (Cert.Gru.lo k)) rfl (ix1 k)
    (fun b => match b with | ⟨0, _⟩ => rfl)
theorem vec256_hi (y x : S128.Idx → EReal) (k : Fin 128) :
    concatenate S256 0 [⟨S128, y⟩, ⟨S128, x⟩] concatenates_S128_S128_S256_d0 (ix1 (Cert.Gru.hi k)) = x (ix1 k) :=
  concatenate_pair_apply_right (t := S256) (s₁ := S128) (s₂ := S128) 0 y x concatenates_S128_S128_S256_d0 (ix1 (Cert.Gru.hi k)) rfl rfl (ix1 k)
    (fun b hb => match b with | ⟨0, _⟩ => absurd rfl hb)
    (show k.val + 128 = 128 + k.val by omega)

/-- The zero block: a splat of the zero pattern reads `0` everywhere. -/
theorem zeros_at (i : S128x128.Idx) :
    broadcastInDim S128x128 ![] bcast_S_S128x128 (constant (F := Ideal) S_ .f32 0x00000000#32) i = 0 := by
  rw [broadcastInDim_apply _ bcast_S_S128x128 _ i ix0 (fun a => a.elim0)]
  exact Ideal.ofBits_zero_f32

/-! ## The staged arrays as the host operations leave them -/

section Arrays

variable (m : (ℓ : Loc nD τ sig) → Buf (Elt Ideal) ℓ) (c : Dev nD)

/-- The two first-layer matrices side by side. -/
def sideBySide : S384x256.Idx → EReal :=
  concatenate S384x256 1 [⟨S384x128, (m ((c : Thread nD τ).loc main_arg2))⟩, ⟨S384x128, (m ((c : Thread nD τ).loc main_arg6))⟩] concatenates_S384x128_S384x128_S384x256_d1

/-- The block-diagonal second layer, before its change of format. -/
def blockDiag : S256x256.Idx → EReal :=
  concatenate S256x256 0
    [⟨S128x256, concatenate S128x256 1 [⟨S128x128, (m ((c : Thread nD τ).loc main_arg4))⟩, ⟨S128x128, broadcastInDim S128x128 ![] bcast_S_S128x128 (constant (F := Ideal) S_ .f32 0x00000000#32)⟩] concatenates_S128x128_S128x128_S128x256_d1⟩,
     ⟨S128x256, concatenate S128x256 1 [⟨S128x128, broadcastInDim S128x128 ![] bcast_S_S128x128 (constant (F := Ideal) S_ .f32 0x00000000#32)⟩, ⟨S128x128, (m ((c : Thread nD τ).loc main_arg8))⟩] concatenates_S128x128_S128x128_S128x256_d1⟩]
    concatenates_S128x256_S128x256_S256x256_d0

theorem v2_eq : (V m c main_v2 : S128x256.Idx → EReal)
    = truncf (F := Ideal) .bf16 (extractStridedSlice S128x256 ![0, 0] (sideBySide m c) slices_S384x256_S128x256_0_0) bitsLt_bf16_f32 := by
  dsimp only [V, hostOps0]; after_results <;> rfl
theorem v4_eq : (V m c main_v4 : S256x256.Idx → EReal)
    = truncf (F := Ideal) .bf16 (extractStridedSlice S256x256 ![128, 0] (sideBySide m c) slices_S384x256_S256x256_128_0) bitsLt_bf16_f32 := by
  dsimp only [V, hostOps0]; after_results <;> rfl
theorem v5_eq : (V m c main_v5 : S256.Idx → EReal)
    = concatenate S256 0 [⟨S128, (m ((c : Thread nD τ).loc main_arg3))⟩, ⟨S128, (m ((c : Thread nD τ).loc main_arg7))⟩] concatenates_S128_S128_S256_d0 := by
  dsimp only [V, hostOps0]; after_results <;> rfl
theorem v10_eq : (V m c main_v10 : S256x256.Idx → EReal) = truncf (F := Ideal) .bf16 (blockDiag m c) bitsLt_bf16_f32 := by
  dsimp only [V, hostOps0]; after_results <;> rfl
theorem v11_eq : (V m c main_v11 : S256.Idx → EReal)
    = concatenate S256 0 [⟨S128, (m ((c : Thread nD τ).loc main_arg5))⟩, ⟨S128, (m ((c : Thread nD τ).loc main_arg9))⟩] concatenates_S128_S128_S256_d0 := by
  dsimp only [V, hostOps0]; after_results <;> rfl
theorem v13_eq : (V m c main_v13 : S128x128.Idx → EReal)
    = truncf (F := Ideal) .bf16 (extractStridedSlice S128x128 ![0, 0] (m ((c : Thread nD τ).loc main_arg10)) slices_S384x128_S128x128_0_0) bitsLt_bf16_f32 := by
  dsimp only [V, hostOps0]; after_results <;> rfl
theorem v15_eq : (V m c main_v15 : S256x128.Idx → EReal)
    = truncf (F := Ideal) .bf16 (extractStridedSlice S256x128 ![128, 0] (m ((c : Thread nD τ).loc main_arg10)) slices_S384x128_S256x128_128_0) bitsLt_bf16_f32 := by
  dsimp only [V, hostOps0]; after_results <;> rfl
theorem v16_eq : (V m c main_v16 : S128x128.Idx → EReal) = truncf (F := Ideal) .bf16 (m ((c : Thread nD τ).loc main_arg12)) bitsLt_bf16_f32 := by
  dsimp only [V, hostOps0]; after_results <;> rfl

/-! ## Their entries -/

theorem v2_lo (q k : Fin 128) : (V m c main_v2 : S128x256.Idx → EReal) (ix2 q (Cert.Gru.lo k)) = (m ((c : Thread nD τ).loc main_arg2)) (ix2 (Cert.Gru.rowH q) k) := by
  rw [v2_eq, truncf_apply, slice2_axis0_apply 0 (sideBySide m c) slices_S384x256_S128x256_0_0 q (Cert.Gru.lo k) (Cert.Gru.rowH q) (by show q.val = 0 + q.val; omega)]
  exact cols384_lo _ _ _ _
theorem v2_hi (q k : Fin 128) : (V m c main_v2 : S128x256.Idx → EReal) (ix2 q (Cert.Gru.hi k)) = (m ((c : Thread nD τ).loc main_arg6)) (ix2 (Cert.Gru.rowH q) k) := by
  rw [v2_eq, truncf_apply, slice2_axis0_apply 0 (sideBySide m c) slices_S384x256_S128x256_0_0 q (Cert.Gru.hi k) (Cert.Gru.rowH q) (by show q.val = 0 + q.val; omega)]
  exact cols384_hi _ _ _ _
theorem v4_lo (q : Fin 256) (k : Fin 128) : (V m c main_v4 : S256x256.Idx → EReal) (ix2 q (Cert.Gru.lo k)) = (m ((c : Thread nD τ).loc main_arg2)) (ix2 (Cert.Gru.rowX q) k) := by
  rw [v4_eq, truncf_apply, slice2_axis0_apply 128 (sideBySide m c) slices_S384x256_S256x256_128_0 q (Cert.Gru.lo k) (Cert.Gru.rowX q) rfl]
  exact cols384_lo _ _ _ _
theorem v4_hi (q : Fin 256) (k : Fin 128) : (V m c main_v4 : S256x256.Idx → EReal) (ix2 q (Cert.Gru.hi k)) = (m ((c : Thread nD τ).loc main_arg6)) (ix2 (Cert.Gru.rowX q) k) := by
  rw [v4_eq, truncf_apply, slice2_axis0_apply 128 (sideBySide m c) slices_S384x256_S256x256_128_0 q (Cert.Gru.hi k) (Cert.Gru.rowX q) rfl]
  exact cols384_hi _ _ _ _
theorem v5_lo (k : Fin 128) : (V m c main_v5 : S256.Idx → EReal) (ix1 (Cert.Gru.lo k)) = (m ((c : Thread nD τ).loc main_arg3)) (ix1 k) := by
  rw [v5_eq]; exact vec256_lo _ _ _
theorem v5_hi (k : Fin 128) : (V m c main_v5 : S256.Idx → EReal) (ix1 (Cert.Gru.hi k)) = (m ((c : Thread nD τ).loc main_arg7)) (ix1 k) := by
  rw [v5_eq]; exact vec256_hi _ _ _
theorem v11_lo (k : Fin 128) : (V m c main_v11 : S256.Idx → EReal) (ix1 (Cert.Gru.lo k)) = (m ((c : Thread nD τ).loc main_arg5)) (ix1 k) := by
  rw [v11_eq]; exact vec256_lo _ _ _
theorem v11_hi (k : Fin 128) : (V m c main_v11 : S256.Idx → EReal) (ix1 (Cert.Gru.hi k)) = (m ((c : Thread nD τ).loc main_arg9)) (ix1 k) := by
  rw [v11_eq]; exact vec256_hi _ _ _
theorem v10_ll (k j : Fin 128) : (V m c main_v10 : S256x256.Idx → EReal) (ix2 (Cert.Gru.lo k) (Cert.Gru.lo j)) = (m ((c : Thread nD τ).loc main_arg4)) (ix2 k j) := by
  rw [v10_eq, truncf_apply]; unfold blockDiag; rw [rows256_lo, cols128_lo]
theorem v10_lh (k j : Fin 128) : (V m c main_v10 : S256x256.Idx → EReal) (ix2 (Cert.Gru.lo k) (Cert.Gru.hi j)) = (0 : EReal) := by
  rw [v10_eq, truncf_apply]; unfold blockDiag; rw [rows256_lo, cols128_hi, zeros_at]
theorem v10_hl (k j : Fin 128) : (V m c main_v10 : S256x256.Idx → EReal) (ix2 (Cert.Gru.hi k) (Cert.Gru.lo j)) = (0 : EReal) := by
  rw [v10_eq, truncf_apply]; unfold blockDiag; rw [rows256_hi, cols128_lo, zeros_at]
theorem v10_hh (k j : Fin 128) : (V m c main_v10 : S256x256.Idx → EReal) (ix2 (Cert.Gru.hi k) (Cert.Gru.hi j)) = (m ((c : Thread nD τ).loc main_arg8)) (ix2 k j) := by
  rw [v10_eq, truncf_apply]; unfold blockDiag; rw [rows256_hi, cols128_hi]
theorem v13_at (q k : Fin 128) : (V m c main_v13 : S128x128.Idx → EReal) (ix2 q k) = (m ((c : Thread nD τ).loc main_arg10)) (ix2 (Cert.Gru.rowH q) k) := by
  rw [v13_eq, truncf_apply]
  exact slice2_axis0_apply 0 _ slices_S384x128_S128x128_0_0 q k (Cert.Gru.rowH q) (by show q.val = 0 + q.val; omega)
theorem v15_at (q : Fin 256) (k : Fin 128) : (V m c main_v15 : S256x128.Idx → EReal) (ix2 q k) = (m ((c : Thread nD τ).loc main_arg10)) (ix2 (Cert.Gru.rowX q) k) := by
  rw [v15_eq, truncf_apply]
  exact slice2_axis0_apply 128 _ slices_S384x128_S256x128_128_0 q k (Cert.Gru.rowX q) rfl
theorem v16_at (k j : Fin 128) : (V m c main_v16 : S128x128.Idx → EReal) (ix2 k j) = (m ((c : Thread nD τ).loc main_arg12)) (ix2 k j) := by
  rw [v16_eq, truncf_apply]

/-! ## The fused row of the staged arrays is the three-gate row of the arguments -/

/-- Row `r`, column `j` of the GRU cell as a function of the fourteen argument arrays. -/
def Grow (r : Fin 262144) (j : Fin 128) : EReal :=
  Cert.Gru.gruRef (fun q => (m ((c : Thread nD τ).loc main_arg1)) (ix2 r q)) (fun q => (m ((c : Thread nD τ).loc main_arg0)) (ix2 r q))
    (fun q k => (m ((c : Thread nD τ).loc main_arg2)) (ix2 q k)) (fun k => (m ((c : Thread nD τ).loc main_arg3)) (ix1 k)) (fun q k => (m ((c : Thread nD τ).loc main_arg4)) (ix2 q k)) (fun k => (m ((c : Thread nD τ).loc main_arg5)) (ix1 k))
    (fun q k => (m ((c : Thread nD τ).loc main_arg6)) (ix2 q k)) (fun k => (m ((c : Thread nD τ).loc main_arg7)) (ix1 k)) (fun q k => (m ((c : Thread nD τ).loc main_arg8)) (ix2 q k)) (fun k => (m ((c : Thread nD τ).loc main_arg9)) (ix1 k))
    (fun q k => (m ((c : Thread nD τ).loc main_arg10)) (ix2 q k)) (fun k => (m ((c : Thread nD τ).loc main_arg11)) (ix1 k)) (fun q k => (m ((c : Thread nD τ).loc main_arg12)) (ix2 q k)) (fun k => (m ((c : Thread nD τ).loc main_arg13)) (ix1 k)) j

theorem fused_eq_ref (r : Fin 262144) (j : Fin 128) :
    Cert.Gru.gruFused (fun q => (V m c main_arg1 : S262144x128.Idx → EReal) (ix2 r q)) (fun q => (V m c main_arg0 : S262144x256.Idx → EReal) (ix2 r q))
      (fun q k => (V m c main_v2 : S128x256.Idx → EReal) (ix2 q k)) (fun q k => (V m c main_v4 : S256x256.Idx → EReal) (ix2 q k)) (fun k => (V m c main_v5 : S256.Idx → EReal) (ix1 k))
      (fun q k => (V m c main_v10 : S256x256.Idx → EReal) (ix2 q k)) (fun k => (V m c main_v11 : S256.Idx → EReal) (ix1 k))
      (fun q k => (V m c main_v13 : S128x128.Idx → EReal) (ix2 q k)) (fun q k => (V m c main_v15 : S256x128.Idx → EReal) (ix2 q k)) (fun k => (V m c main_arg11 : S128.Idx → EReal) (ix1 k))
      (fun q k => (V m c main_v16 : S128x128.Idx → EReal) (ix2 q k)) (fun k => (V m c main_arg13 : S128.Idx → EReal) (ix1 k)) j
      = Grow m c r j := by
  unfold Grow
  rw [V_main_arg0, V_main_arg1, V_main_arg11, V_main_arg13]
  have hR : (fun q k => (V m c main_v16 : S128x128.Idx → EReal) (ix2 q k)) = fun q k => (m ((c : Thread nD τ).loc main_arg12)) (ix2 q k) :=
    funext fun q => funext fun k => v16_at m c q k
  rw [hR]
  exact Cert.Gru.gruFused_eq _ _ _ _ _ _ _ _ _ _ _ _ _ _ _ _ _ _ _ _ _
    (fun q k => v2_lo m c q k) (fun q k => v2_hi m c q k) (fun q k => v4_lo m c q k) (fun q k => v4_hi m c q k)
    (fun k => v5_lo m c k) (fun k => v5_hi m c k)
    (fun k j => v10_ll m c k j) (fun k j => v10_lh m c k j) (fun k j => v10_hl m c k j) (fun k j => v10_hh m c k j)
    (fun j => v11_lo m c j) (fun j => v11_hi m c j) (fun q k => v13_at m c q k) (fun q k => v15_at m c q k) j

end Arrays

end Cert.KernelIdeal.HostArrays

end
-- ==== Proof.Blocks.lean ====
/-
  From blocks to the whole array. The grid has 64 points; point `t` stages rows `4096 t ‥ 4096 t + 4095` of the input and
  of the hidden state, the whole of every weight array (the same block at every point), runs the body, and writes back
  rows `4096 t ‥ 4096 t + 4095` of the result. So what point `t` writes back is block `t` of ONE whole-array function `Gk`
  — entry `(r, j)` is the GRU row function of row `r` of the arguments — and, the 64 row blocks covering all 262144 rows,
  the result array ends holding `Gk`.
-/
import proofs.«150013_j72181220377171_2_alg».proof.Proof.Gen.KernelIdeal.Value
import proofs.«150013_j72181220377171_2_alg».proof.Proof.KerRow
import proofs.«150013_j72181220377171_2_alg».proof.Proof.HostArrays

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## The printed index maps, decided over the 64 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-- Row `p` of point `t`'s row block is row `4096 t + p` of the array. -/
def gRow (t : Fin cfg0.N) (p : Fin 4096) : Fin 262144 :=
  ⟨t.val * 4096 + p.val, by have := Nat.lt_of_lt_of_eq t.isLt N_0; omega⟩

/-! ## Each window's block at a point, read off its array -/

theorem blk0 (c : Dev nD) (t : Fin cfg0.N) (p : Fin 4096) (q : Fin 256) :
    iblk m c 0 t (ix2 p q) = (V m c main_arg0 : S262144x256.Idx → EReal) (ix2 (gRow t p) q) := by
  show V m c main_arg0 (((cfg0.win 0).blk t).view.emb (ix2 p q)) = V m c main_arg0 (ix2 (gRow t p) q)
  refine congrArg _ (funext fun a => Fin.ext ?_)
  obtain ⟨e0, e1⟩ := idx0 t
  match a with
  | ⟨0, _⟩ => show win0_0.index t (0 : Fin 2) * 4096 + 1 * p.val = t.val * 4096 + p.val; omega
  | ⟨1, _⟩ => show win0_0.index t (1 : Fin 2) * 256 + 1 * q.val = q.val; omega

theorem blk1 (c : Dev nD) (t : Fin cfg0.N) (p : Fin 4096) (q : Fin 128) :
    iblk m c 1 t (ix2 p q) = (V m c main_arg1 : S262144x128.Idx → EReal) (ix2 (gRow t p) q) := by
  show V m c main_arg1 (((cfg0.win 1).blk t).view.emb (ix2 p q)) = V m c main_arg1 (ix2 (gRow t p) q)
  refine congrArg _ (funext fun a => Fin.ext ?_)
  obtain ⟨e0, e1⟩ := idx1 t
  match a with
  | ⟨0, _⟩ => show win0_1.index t (0 : Fin 2) * 4096 + 1 * p.val = t.val * 4096 + p.val; omega
  | ⟨1, _⟩ => show win0_1.index t (1 : Fin 2) * 128 + 1 * q.val = q.val; omega

theorem blk2 (c : Dev nD) (t : Fin cfg0.N) (q : Fin 128) (k : Fin 256) :
    iblk m c 2 t (ix2 q k) = (V m c main_v2 : S128x256.Idx → EReal) (ix2 q k) := by
  show V m c main_v2 (((cfg0.win 2).blk t).view.emb (ix2 q k)) = V m c main_v2 (ix2 q k)
  refine congrArg _ (funext fun a => Fin.ext ?_)
  obtain ⟨e0, e1⟩ := idx2 t
  match a with
  | ⟨0, _⟩ => show win0_2.index t (0 : Fin 2) * 128 + 1 * q.val = q.val; omega
  | ⟨1, _⟩ => show win0_2.index t (1 : Fin 2) * 256 + 1 * k.val = k.val; omega

theorem blk3 (c : Dev nD) (t : Fin cfg0.N) (q : Fin 256) (k : Fin 256) :
    iblk m c 3 t (ix2 q k) = (V m c main_v4 : S256x256.Idx → EReal) (ix2 q k) := by
  show V m c main_v4 (((cfg0.win 3).blk t).view.emb (ix2 q k)) = V m c main_v4 (ix2 q k)
  refine congrArg _ (funext fun a => Fin.ext ?_)
  obtain ⟨e0, e1⟩ := idx3 t
  match a with
  | ⟨0, _⟩ => show win0_3.index t (0 : Fin 2) * 256 + 1 * q.val = q.val; omega
  | ⟨1, _⟩ => show win0_3.index t (1 : Fin 2) * 256 + 1 * k.val = k.val; omega

theorem blk4 (c : Dev nD) (t : Fin cfg0.N) (k : Fin 256) :
    iblk m c 4 t (ix1 k) = (V m c main_v5 : S256.Idx → EReal) (ix1 k) := by
  show V m c main_v5 (((cfg0.win 4).blk t).view.emb (ix1 k)) = V m c main_v5 (ix1 k)
  refine congrArg _ (funext fun a => Fin.ext ?_)
  have e0 := idx4 t
  match a with
  | ⟨0, _⟩ => show win0_4.index t (0 : Fin 1) * 256 + 1 * k.val = k.val; omega

theorem blk5 (c : Dev nD) (t : Fin cfg0.N) (q : Fin 256) (k : Fin 256) :
    iblk m c 5 t (ix2 q k) = (V m c main_v10 : S256x256.Idx → EReal) (ix2 q k) := by
  show V m c main_v10 (((cfg0.win 5).blk t).view.emb (ix2 q k)) = V m c main_v10 (ix2 q k)
  refine congrArg _ (funext fun a => Fin.ext ?_)
  obtain ⟨e0, e1⟩ := idx5 t
  match a with
  | ⟨0, _⟩ => show win0_5.index t (0 : Fin 2) * 256 + 1 * q.val = q.val; omega
  | ⟨1, _⟩ => show win0_5.index t (1 : Fin 2) * 256 + 1 * k.val = k.val; omega

theorem blk6 (c : Dev nD) (t : Fin cfg0.N) (k : Fin 256) :
    iblk m c 6 t (ix1 k) = (V m c main_v11 : S256.Idx → EReal) (ix1 k) := by
  show V m c main_v11 (((cfg0.win 6).blk t).view.emb (ix1 k)) = V m c main_v11 (ix1 k)
  refine congrArg _ (funext fun a => Fin.ext ?_)
  have e0 := idx6 t
  match a with
  | ⟨0, _⟩ => show win0_6.index t (0 : Fin 1) * 256 + 1 * k.val = k.val; omega

theorem blk7 (c : Dev nD) (t : Fin cfg0.N) (q : Fin 128) (k : Fin 128) :
    iblk m c 7 t (ix2 q k) = (V m c main_v13 : S128x128.Idx → EReal) (ix2 q k) := by
  show V m c main_v13 (((cfg0.win 7).blk t).view.emb (ix2 q k)) = V m c main_v13 (ix2 q k)
  refine congrArg _ (funext fun a => Fin.ext ?_)
  obtain ⟨e0, e1⟩ := idx7 t
  match a with
  | ⟨0, _⟩ => show win0_7.index t (0 : Fin 2) * 128 + 1 * q.val = q.val; omega
  | ⟨1, _⟩ => show win0_7.index t (1 : Fin 2) * 128 + 1 * k.val = k.val; omega

theorem blk8 (c : Dev nD) (t : Fin cfg0.N) (q : Fin 256) (k : Fin 128) :
    iblk m c 8 t (ix2 q k) = (V m c main_v15 : S256x128.Idx → EReal) (ix2 q k) := by
  show V m c main_v15 (((cfg0.win 8).blk t).view.emb (ix2 q k)) = V m c main_v15 (ix2 q k)
  refine congrArg _ (funext fun a => Fin.ext ?_)
  obtain ⟨e0, e1⟩ := idx8 t
  match a with
  | ⟨0, _⟩ => show win0_8.index t (0 : Fin 2) * 256 + 1 * q.val = q.val; omega
  | ⟨1, _⟩ => show win0_8.index t (1 : Fin 2) * 128 + 1 * k.val = k.val; omega

theorem blk9 (c : Dev nD) (t : Fin cfg0.N) (k : Fin 128) :
    iblk m c 9 t (ix1 k) = (V m c main_arg11 : S128.Idx → EReal) (ix1 k) := by
  show V m c main_arg11 (((cfg0.win 9).blk t).view.emb (ix1 k)) = V m c main_arg11 (ix1 k)
  refine congrArg _ (funext fun a => Fin.ext ?_)
  have e0 := idx9 t
  match a with
  | ⟨0, _⟩ => show win0_9.index t (0 : Fin 1) * 128 + 1 * k.val = k.val; omega

theorem blk10 (c : Dev nD) (t : Fin cfg0.N) (q : Fin 128) (k : Fin 128) :
    iblk m c 10 t (ix2 q k) = (V m c main_v16 : S128x128.Idx → EReal) (ix2 q k) := by
  show V m c main_v16 (((cfg0.win 10).blk t).view.emb (ix2 q k)) = V m c main_v16 (ix2 q k)
  refine congrArg _ (funext fun a => Fin.ext ?_)
  obtain ⟨e0, e1⟩ := idx10 t
  match a with
  | ⟨0, _⟩ => show win0_10.index t (0 : Fin 2) * 128 + 1 * q.val = q.val; omega
  | ⟨1, _⟩ => show win0_10.index t (1 : Fin 2) * 128 + 1 * k.val = k.val; omega

theorem blk11 (c : Dev nD) (t : Fin cfg0.N) (k : Fin 128) :
    iblk m c 11 t (ix1 k) = (V m c main_arg13 : S128.Idx → EReal) (ix1 k) := by
  show V m c main_arg13 (((cfg0.win 11).blk t).view.emb (ix1 k)) = V m c main_arg13 (ix1 k)
  refine congrArg _ (funext fun a => Fin.ext ?_)
  have e0 := idx11 t
  match a with
  | ⟨0, _⟩ => show win0_11.index t (0 : Fin 1) * 128 + 1 * k.val = k.val; omega

/-- Entry `(p, q)` of point `t`'s output block is entry `(4096 t + p, q)` of the result array. -/
theorem emb12 (t : Fin cfg0.N) (p : Fin 4096) (q : Fin 128) :
    ((cfg0.win 12).blk t).view.emb (ix2 p q) = ix2 (gRow t p) q := by
  funext a; apply Fin.ext
  obtain ⟨e0, e1⟩ := idx12 t
  match a with
  | ⟨0, _⟩ => show win0_12.index t (0 : Fin 2) * 4096 + 1 * p.val = t.val * 4096 + p.val; omega
  | ⟨1, _⟩ => show win0_12.index t (1 : Fin 2) * 128 + 1 * q.val = q.val; omega

/-! ## What each point writes back -/

/-- The result array as ONE function of the argument arrays: entry `(r, j)` is the GRU row function of row `r`. -/
def Gk (c : Dev nD) : S262144x128.Idx → EReal := fun i => HostArrays.Grow m c (i 0) (i 1)

/-- WHAT POINT `t` WRITES BACK is block `t` of `Gk`. -/
theorem flushed_eq (c : Dev nD) (t : Fin cfg0.N) :
    (dats m 0 c).flushed 12 t = ((cfg0.win 12).blk t).view.read (Elt Ideal) (Gk m c) := by
  rw [Value.flushed12]
  unfold out0_12
  rw [View.canon_unit_zero hz]
  simp only [View.ld_unit_zero (S := S4096x256) hz, View.ld_unit_zero (S := S4096x128) hz, View.ld_unit_zero (S := S128x256) hz, View.ld_unit_zero (S := S256x256) hz, View.ld_unit_zero (S := S128x128) hz, View.ld_unit_zero (S := S256x128) hz, View.ld_unit_zero (S := S256) hz1, View.ld_unit_zero (S := S128) hz1]
  funext j
  obtain ⟨p, q, rfl⟩ : ∃ (p : Fin 4096) (q : Fin 128), j = ix2 p q := ⟨j 0, j 1, eq_ix2 j⟩
  show k0_pay1 (F := Ideal) (iblk m c 1 t) (k0_pay4 (F := Ideal) (iblk m c 0 t) (iblk m c 1 t) (iblk m c 2 t) (iblk m c 3 t) (iblk m c 4 t) (iblk m c 5 t) (iblk m c 6 t))
      (k0_pay5 (F := Ideal) (iblk m c 0 t) (iblk m c 1 t) (iblk m c 2 t) (iblk m c 3 t) (iblk m c 4 t) (iblk m c 5 t) (iblk m c 6 t) (iblk m c 7 t) (iblk m c 8 t))
      (iblk m c 9 t) (iblk m c 10 t) (iblk m c 11 t) (ix2 p q)
    = Gk m c (((cfg0.win 12).blk t).view.emb (ix2 p q))
  refine (KerRow.payload_at (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) p q).trans ?_
  have h0 : (fun q' : Fin 256 => iblk m c 0 t (ix2 p q')) = fun q' => (V m c main_arg0 : S262144x256.Idx → EReal) (ix2 (gRow t p) q') :=
    funext fun q' => blk0 m c t p q'
  have h1 : (fun q' : Fin 128 => iblk m c 1 t (ix2 p q')) = fun q' => (V m c main_arg1 : S262144x128.Idx → EReal) (ix2 (gRow t p) q') :=
    funext fun q' => blk1 m c t p q'
  have h2 : (fun (a : Fin 128) (b : Fin 256) => iblk m c 2 t (ix2 a b)) = fun a b => (V m c main_v2 : S128x256.Idx → EReal) (ix2 a b) :=
    funext fun a => funext fun b => blk2 m c t a b
  have h3 : (fun (a : Fin 256) (b : Fin 256) => iblk m c 3 t (ix2 a b)) = fun a b => (V m c main_v4 : S256x256.Idx → EReal) (ix2 a b) :=
    funext fun a => funext fun b => blk3 m c t a b
  have h4 : (fun a : Fin 256 => iblk m c 4 t (ix1 a)) = fun a => (V m c main_v5 : S256.Idx → EReal) (ix1 a) :=
    funext fun a => blk4 m c t a
  have h5 : (fun (a : Fin 256) (b : Fin 256) => iblk m c 5 t (ix2 a b)) = fun a b => (V m c main_v10 : S256x256.Idx → EReal) (ix2 a b) :=
    funext fun a => funext fun b => blk5 m c t a b
  have h6 : (fun a : Fin 256 => iblk m c 6 t (ix1 a)) = fun a => (V m c main_v11 : S256.Idx → EReal) (ix1 a) :=
    funext fun a => blk6 m c t a
  have h7 : (fun (a : Fin 128) (b : Fin 128) => iblk m c 7 t (ix2 a b)) = fun a b => (V m c main_v13 : S128x128.Idx → EReal) (ix2 a b) :=
    funext fun a => funext fun b => blk7 m c t a b
  have h8 : (fun (a : Fin 256) (b : Fin 128) => iblk m c 8 t (ix2 a b)) = fun a b => (V m c main_v15 : S256x128.Idx → EReal) (ix2 a b) :=
    funext fun a => funext fun b => blk8 m c t a b
  have h9 : (fun a : Fin 128 => iblk m c 9 t (ix1 a)) = fun a => (V m c main_arg11 : S128.Idx → EReal) (ix1 a) :=
    funext fun a => blk9 m c t a
  have h10 : (fun (a : Fin 128) (b : Fin 128) => iblk m c 10 t (ix2 a b)) = fun a b => (V m c main_v16 : S128x128.Idx → EReal) (ix2 a b) :=
    funext fun a => funext fun b => blk10 m c t a b
  have h11 : (fun a : Fin 128 => iblk m c 11 t (ix1 a)) = fun a => (V m c main_arg13 : S128.Idx → EReal) (ix1 a) :=
    funext fun a => blk11 m c t a
  rw [h0, h1, h2, h3, h4, h5, h6, h7, h8, h9, h10, h11, emb12]
  exact HostArrays.fused_eq_ref m c (gRow t p) q

/-! ## The 64 row blocks cover the array -/

/-- An index of the result array is in point `t`'s block iff each coordinate is in the block's range on its axis. -/
theorem mem_blk12 (t : Fin cfg0.N) (i : S262144x128.Idx) :
    i ∈ ((cfg0.win 12).blk t).view.set ↔ ∀ a : Fin 2, win0_12.index t a * S4096x128.size a ≤ (i a).val ∧ (i a).val < win0_12.index t a * S4096x128.size a + S4096x128.size a := by
  show i ∈ ((View.whole main_v17).slice (win0_12.rect t)).set ↔ _
  rw [View.set_slice_whole, Rect.mem_set_unit]
  exact Iff.rfl

/-- Row `r` lies in the block of point `r / 4096`. -/
theorem cover (i : S262144x128.Idx) : ∃ t : Fin cfg0.N, (cfg0.win 12).flush t = true ∧ i ∈ ((cfg0.win 12).blk t).view.set := by
  have hi0 : (i 0).val < 262144 := idx2_lt0 i
  have hi1 : (i 1).val < 128 := idx2_lt1 i
  obtain ⟨t, ht⟩ : ∃ t : Fin cfg0.N, t.val = (i 0).val / 4096 :=
    ⟨⟨(i 0).val / 4096, by rw [show cfg0.N = 64 from N_0]; omega⟩, rfl⟩
  obtain ⟨e0, e1⟩ := idx12 t
  refine ⟨t, flush0_12 t, ?_⟩
  rw [mem_blk12]
  intro a
  match a with
  | ⟨0, _⟩ => show win0_12.index t (0 : Fin 2) * 4096 ≤ (i 0).val ∧ (i 0).val < win0_12.index t (0 : Fin 2) * 4096 + 4096; omega
  | ⟨1, _⟩ => show win0_12.index t (1 : Fin 2) * 128 ≤ (i 1).val ∧ (i 1).val < win0_12.index t (1 : Fin 2) * 128 + 128; omega

/-- THE ARRAY after the run is `Gk` of the argument arrays. -/
theorem final (c : Dev nD) : (dats m 0 c).arrAt 12 cfg0.N = Gk m c :=
  (dats m 0 c).arrAt_eq_of_cover 12 (Gk m c) (fun t _ => flushed_eq m c t) (cover)

/-- The kernel's run re-posted: the result array at `Gk`, the arguments unchanged. -/
theorem run : θ_run defs (onTc (τ := τ) (main (F := Ideal))) ⟨m, fun _ => 0, ρ⟩ fun r => ∀ c : Dev nD,
      r.2.mem ((c : Thread nD τ).loc main_v17) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Blocks

end
-- ==== Proof.lean ====
/-
  A GRU cell over 262144 rows: per row, three two-layer gates on the joined row `[h | x]` (update `u`, reset `r`, and the
  candidate `n` on `[h ⊙ r | x]`), each `tanh ([·|x] · W₁ + b₁) · W₂ + b₂`, the first two squashed by the logistic
  function, and the blend `(1 − u) ⊙ n + u ⊙ h`.

  The reference computes the three gates one after the other, each first layer as ONE product of the joined 384-wide
  row with a 384-row matrix, and the logistic function as the quotient `1 / (1 + e^(−z))`.

  The kernel works on blocks of 4096 rows and computes the update and reset gates TOGETHER: its host code lays their
  first-layer matrices side by side `[Wu₁ | Wr₁]`, cuts the result at the joint of the joined row (so that
  `[h | x] · W = h · W[:128] + x · W[128:]`), lays the biases end to end, and builds the block-diagonal second layer
  `[[Wu₂, 0], [0, Wr₂]]`; the body squashes the 256 fused columns at once and cuts them back into `u` and `r`.
  It also changes float formats on the way, which is the identity on the extended reals.

  Why the two agree on the extended reals, with no appeal to finiteness:
  * a sum over the 384 joined positions is the sum over the first 128 plus the sum over the last 256, and a sum over the 256
    fused hidden units is the sum over each half (additions only regrouped: a commutative monoid suffices);
  * column `c` of the fused first layer meets only column `c` of one of the two matrices;
  * in the fused second layer the half of the terms that meets a zero block is `t · 0 = 0` for every extended real `t`;
  * the kernel's logistic function is BY DEFINITION the quotient the reference spells; `tanh` is one function on both sides;
    the constant one is the same pattern on both sides.
  These are `Gru.gruFused_eq` (Proof/GruRow.lean). Around it: the reference's run and its value at an index
  (Proof/RefRun.lean, Proof/RefRow.lean); the kernel body's value at an index (Proof/KerRow.lean); what the host code
  leaves in the staged arrays (Proof/HostArrays.lean); and the passage from the 64 row blocks to the whole result array
  (Proof/Blocks.lean). The three frames are the generated frame runs; the idealization rewrote nothing, so the kernel
  is its own idealization read at the ideal instance.
-/
import proofs.«150013_j72181220377171_2_alg».proof.Defs
import proofs.«150013_j72181220377171_2_alg».proof.Proof.Gen.Kernel
import proofs.«150013_j72181220377171_2_alg».proof.Proof.Gen.Kernel.Skeleton
import proofs.«150013_j72181220377171_2_alg».proof.Proof.Gen.Kernel.Launch
import proofs.«150013_j72181220377171_2_alg».proof.Proof.Gen.Kernel.Points
import proofs.«150013_j72181220377171_2_alg».proof.Proof.Gen.Kernel.Frame
import proofs.«150013_j72181220377171_2_alg».proof.Proof.Gen.KernelIdeal
import proofs.«150013_j72181220377171_2_alg».proof.Proof.Gen.KernelIdeal.Skeleton
import proofs.«150013_j72181220377171_2_alg».proof.Proof.Gen.KernelIdeal.Launch
import proofs.«150013_j72181220377171_2_alg».proof.Proof.Gen.KernelIdeal.Points
import proofs.«150013_j72181220377171_2_alg».proof.Proof.Gen.KernelIdeal.Frame
import proofs.«150013_j72181220377171_2_alg».proof.Proof.Gen.ReferenceIdeal
import proofs.«150013_j72181220377171_2_alg».proof.Proof.Gen.KernelIdeal.Value
import proofs.«150013_j72181220377171_2_alg».proof.Proof.Gen.Pre_finite_inputs
import proofs.«150013_j72181220377171_2_alg».proof.Proof.GruRow
import proofs.«150013_j72181220377171_2_alg».proof.Proof.RefRun
import proofs.«150013_j72181220377171_2_alg».proof.Proof.RefRow
import proofs.«150013_j72181220377171_2_alg».proof.Proof.KerRow
import proofs.«150013_j72181220377171_2_alg».proof.Proof.HostArrays
import proofs.«150013_j72181220377171_2_alg».proof.Proof.Blocks
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation: nothing to restate. -/
theorem preserves : Cert.preserves_Kernel_KernelIdeal := trivial

/-- Run from memories that agree on the fourteen arguments, the kernel ends with its result array at `Gk` — entry `(r, j)`
    the GRU row function of row `r` of the arguments — and the reference ends at its composed term, whose entry `(r, j)` is
    the same row function of the same rows. -/
theorem algebraic : Cert.algebraic_KernelIdeal_ReferenceIdeal := by
  intro m ρ m' ρ' _ hagree
  refine ⟨fun c => Cert.KernelIdeal.Blocks.Gk m c, Cert.KernelIdeal.Blocks.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4, a5, a6, a7, a8, a9, a10, a11, a12, a13⟩ := hagree c
  rw [a0, a1, a2, a3, a4, a5, a6, a7, a8, a9, a10, a11, a12, a13]
  funext i
  obtain ⟨r, j, rfl⟩ : ∃ (r : Fin 262144) (j : Fin 128), i = ix2 r j := ⟨i 0, i 1, eq_ix2 i⟩
  rw [Cert.ReferenceIdeal.RefRow.gruA_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
